-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S50000x1 .f32) (main_arg2 : IVec S1600000 32) (main_arg3 : IVec S1600000 32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S50000x1 : Shape := ⟨2, ![50000, 1]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 59
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S50000x128, .f32⟩
  | .hbm, ⟨19, _⟩ => ⟨S1600000x1, .i32⟩
  | .hbm, ⟨20, _⟩ => ⟨S50000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S50000, .f32⟩
  | .hbm, ⟨25, _⟩ => ⟨S1600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x1, .i1⟩
  | .hbm, ⟨37, _⟩ => ⟨S50000x128, .i1⟩
  | .hbm, ⟨38, _⟩ => ⟨S50000x128, .f32⟩
  | .hbm, ⟨39, _⟩ => ⟨S128x128, .f32⟩
  | .hbm, ⟨40, _⟩ => ⟨S1x128, .f32⟩
  | .hbm, ⟨41, _⟩ => ⟨S50000x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  reduces_S5000x128_S128 : S5000x128.Reduces [0] S128
  bcast_S_S1x128 : S_.BroadcastsInDim S1x128 (![] : Fin 0 → Fin S1x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S50000x128, .f32⟩
  | .hbm, ⟨19, _⟩ => ⟨S1600000x1, .i32⟩
  | .hbm, ⟨20, _⟩ => ⟨S50000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S50000, .f32⟩
  | .hbm, ⟨25, _⟩ => ⟨S1600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x1, .i1⟩
  | .hbm, ⟨37, _⟩ => ⟨S50000x128, .i1⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two arrangements of one graph-convolution layer with batch normalisation, as functions of the arrays that
  enter the dense stage, entry by entry over the extended reals.

  Given the aggregated node features `h0` (N × D), the weight matrix `w` (D × D, used transposed), the bias `b`,
  the per-node scale `sn` (N × 1), the batch-norm scale `g` and shift `be` and the residual input `x`, with
  N = 50000 and D = 128:

    lin(p,n) = Σ_k h0(p,k) · w(n,k)            y(p,n) = (lin(p,n) + b(n)) · sn(p)
    S(n) = Σ_p y(p,n)    Q(n) = Σ_p y(p,n)²    μ(n) = S(n) / N

  The one-pass arrangement takes the variance as Q/N − μ² and multiplies by the reciprocal square root;
  the centred arrangement takes it as (Σ_p (y − μ)²)/N and divides by the square root. Both then scale, shift,
  clamp below at zero and add the residual.
-/
import Idealize.ShloMosaic.PureOps.Ideal
import Idealize.ShloMosaic.Lib.ValueIdx

noncomputable section

namespace Cert.Spec

open Idealize.ShloMosaic Idealize.ShloMosaic.ValueIdx

/-- The node count as the programs spell it: the f32 word of 50000. -/
abbrev cN : EReal := Ideal.ofBits .f32 0x47435000#32
/-- The variance offset as the programs spell it: the f32 word nearest 1e-5. -/
abbrev cEps : EReal := Ideal.ofBits .f32 0x3727C5AC#32
/-- The f32 zero word. -/
abbrev cZero : EReal := Ideal.ofBits .f32 0x00000000#32

variable (h0 : (⟨2, ![50000, 128]⟩ : Shape).Idx → EReal) (sn : (⟨2, ![50000, 1]⟩ : Shape).Idx → EReal)
  (w : (⟨2, ![128, 128]⟩ : Shape).Idx → EReal) (b g be : (⟨1, ![128]⟩ : Shape).Idx → EReal)
  (x : (⟨2, ![50000, 128]⟩ : Shape).Idx → EReal)

/-- The linear map: row `p` of `h0` against row `n` of `w`. -/
def lin (p : Fin 50000) (n : Fin 128) : EReal := ∑ k : Fin 128, h0 (ix2 p k) * w (ix2 n k)

/-- The layer's output before normalisation: bias added, then the node's scale. -/
def y (p : Fin 50000) (n : Fin 128) : EReal := (lin h0 w p n + b (ix1 n)) * sn (ix2 p (0 : Fin 1))

/-- Column sums of `y` and of its squares. -/
def colSum (n : Fin 128) : EReal := ∑ p : Fin 50000, y h0 sn w b p n
def colSq (n : Fin 128) : EReal := ∑ p : Fin 50000, y h0 sn w b p n * y h0 sn w b p n

/-- The column mean. -/
def mean (n : Fin 128) : EReal := Ideal.div (colSum h0 sn w b n) cN

/-- The variance, one pass: mean of squares less square of mean. -/
def varOnePass (n : Fin 128) : EReal := Ideal.div (colSq h0 sn w b n) cN - mean h0 sn w b n * mean h0 sn w b n

/-- The variance, centred: mean of the squared deviations. -/
def varCentred (n : Fin 128) : EReal :=
  Ideal.div (∑ p : Fin 50000, (y h0 sn w b p n - mean h0 sn w b n) * (y h0 sn w b p n - mean h0 sn w b n)) cN

/-- The one-pass arrangement's result at (p, n). -/
def outOnePass (p : Fin 50000) (n : Fin 128) : EReal :=
  x (ix2 p n) + max ((y h0 sn w b p n - mean h0 sn w b n) * Ideal.rsqrt (varOnePass h0 sn w b n + cEps) * g (ix1 n) + be (ix1 n)) cZero

/-- The centred arrangement's result at (p, n). -/
def outCentred (p : Fin 50000) (n : Fin 128) : EReal :=
  x (ix2 p n) + max (Ideal.div (y h0 sn w b p n - mean h0 sn w b n) (Ideal.sqrt (varCentred h0 sn w b n + cEps)) * g (ix1 n) + be (ix1 n)) cZero

end Cert.Spec

end
-- ==== Proof.RefValue.lean ====
/-
  The reference program's result, entry by entry, is the centred arrangement of the layer.

  The reference aggregates the features first (a stage kept closed here: nothing below looks inside it), and from
  that table h0 computes, in this order: the linear map against the transposed weight matrix, so that entry (p, n) is
  the sum over k of h0(p,k) · W(n,k); the bias and the node's scale, giving y(p,n); the column mean of y as
  (0 + sum over p of y(p,n)) / N; the deviations y − mean; the mean of their squares, again as (0 + sum) / N; the
  quotient of the deviation by the square root of that variance plus the offset; the scale and shift; the clamp below
  at zero; and the residual. Each stage is read at an index (p, n) or (n): a broadcast reads its operand at the index
  with the broadcast axes dropped, a sum reads its operand along the summed axis, and the two leading zeros of the
  sums vanish. The stages are identified one after another with the specification's lin, y, mean, varCentred and
  outCentred; the float constants stay the words the program spells.
-/
import proofs.«132494_j17480516894879_1_alg».proof.Proof.RefRead
import proofs.«132494_j17480516894879_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.ReadP
open Idealize.ShloMosaic Idealize.ShloMosaic.ValueIdx

variable (x0 : (⟨S50000x128, .f32⟩ : BufTy).Contents (Elt Ideal)) (x1 : (⟨S50000x1, .f32⟩ : BufTy).Contents (Elt Ideal))
  (x2 x3 : (⟨S1600000, .i32⟩ : BufTy).Contents (Elt Ideal)) (x4 : (⟨S128x128, .f32⟩ : BufTy).Contents (Elt Ideal))
  (x5 x6 x7 : (⟨S128, .f32⟩ : BufTy).Contents (Elt Ideal))

/-- The linear stage: the contraction runs over the aggregated table's columns and, the weight matrix being
    transposed first, over the columns of row `n` of the weight matrix. -/
theorem lin_eq (p : Fin 50000) (n : Fin 128) :
    val_main_v24 (F := Ideal) x0 x2 x3 x4 (ix2 p n)
      = Cert.Spec.lin (val_main_v22 (F := Ideal) x0 x2 x3) x4 p n := by
  have e1 : ∀ k : Fin 128, lidx_main_v24 (ix2 p n) k = ix2 p k := fun k => funext fun a => Fin.ext (by match a with | ⟨0, _⟩ => rfl | ⟨1, _⟩ => rfl)
  have e2 : ∀ k : Fin 128, idx_main_v23 (ridx_main_v24 (ix2 p n) k) = ix2 n k := fun k => funext fun a => Fin.ext (by match a with | ⟨0, _⟩ => rfl | ⟨1, _⟩ => rfl)
  rw [val_main_v24_apply]
  unfold Cert.Spec.lin
  refine Finset.sum_congr rfl fun k _ => ?_
  rw [val_main_v23_apply, e1 k, e2 k]

/-- The layer's output before normalisation: the bias is read at the column, the node's scale at the row. -/
theorem y_eq (p : Fin 50000) (n : Fin 128) :
    val_main_v29 (F := Ideal) x0 x1 x2 x3 x4 x5 (ix2 p n)
      = Cert.Spec.y (val_main_v22 (F := Ideal) x0 x2 x3) x1 x4 x5 p n := by
  have e1 : idx_main_v25 (idx_main_v26 (ix2 p n)) = ix1 n := funext fun a => Fin.ext (by match a with | ⟨0, _⟩ => rfl)
  have e2 : idx_main_v28 (ix2 p n) = ix2 p (0 : Fin 1) := funext fun a => Fin.ext (by match a with | ⟨0, _⟩ => rfl | ⟨1, _⟩ => rfl)
  rw [val_main_v29_apply, val_main_v27_apply, val_main_v28_apply, val_main_v26_apply, val_main_v25_apply,
    Ideal.mulf_def, Ideal.addf_def, lin_eq, e1, e2]
  rfl

/-- The column mean: the sum's leading zero vanishes, and the sum runs down column `n`. -/
theorem mean_eq (n : Fin 128) :
    val_main_v32 (F := Ideal) x0 x1 x2 x3 x4 x5 (ix1 n)
      = Cert.Spec.mean (val_main_v22 (F := Ideal) x0 x2 x3) x1 x4 x5 n := by
  have e : ∀ k : Fin 50000, idx_main_v30 (ix1 n) k = ix2 k n := fun k => funext fun a => Fin.ext (by match a with | ⟨0, _⟩ => rfl | ⟨1, _⟩ => rfl)
  have hs : (∑ k : Fin 50000, val_main_v29 (F := Ideal) x0 x1 x2 x3 x4 x5 (idx_main_v30 (ix1 n) k))
      = ∑ q : Fin 50000, Cert.Spec.y (val_main_v22 (F := Ideal) x0 x2 x3) x1 x4 x5 q n :=
    Finset.sum_congr rfl fun k _ => by rw [e k, y_eq]
  rw [val_main_v32_apply, val_main_v30_apply, val_main_v31_apply, val_main_cst_6_apply, val_main_cst_5_apply,
    Ideal.hostDivf_def, Ideal.ofBits_def, Ideal.ofBits_def, Ideal.ofBits_zero_f32, zero_add, hs]
  rfl

/-- The deviation from the column mean, as the variance's sum reads it. -/
theorem dev_eq (p : Fin 50000) (n : Fin 128) :
    val_main_v35 (F := Ideal) x0 x1 x2 x3 x4 x5 (ix2 p n)
      = Cert.Spec.y (val_main_v22 (F := Ideal) x0 x2 x3) x1 x4 x5 p n
        - Cert.Spec.mean (val_main_v22 (F := Ideal) x0 x2 x3) x1 x4 x5 n := by
  have e : idx_main_v33 (idx_main_v34 (ix2 p n)) = ix1 n := funext fun a => Fin.ext (by match a with | ⟨0, _⟩ => rfl)
  rw [val_main_v35_apply, val_main_v34_apply, val_main_v33_apply, Ideal.subf_def, y_eq, e, mean_eq]

/-- The deviation from the column mean, as the normalisation reads it (the program broadcasts the mean a second
    time). -/
theorem dev_eq' (p : Fin 50000) (n : Fin 128) :
    val_main_v42 (F := Ideal) x0 x1 x2 x3 x4 x5 (ix2 p n)
      = Cert.Spec.y (val_main_v22 (F := Ideal) x0 x2 x3) x1 x4 x5 p n
        - Cert.Spec.mean (val_main_v22 (F := Ideal) x0 x2 x3) x1 x4 x5 n := by
  have e : idx_main_v40 (idx_main_v41 (ix2 p n)) = ix1 n := funext fun a => Fin.ext (by match a with | ⟨0, _⟩ => rfl)
  rw [val_main_v42_apply, val_main_v41_apply, val_main_v40_apply, Ideal.subf_def, y_eq, e, mean_eq]

/-- The variance: the mean of the squared deviations down column `n`. -/
theorem var_eq (n : Fin 128) :
    val_main_v39 (F := Ideal) x0 x1 x2 x3 x4 x5 (ix1 n)
      = Cert.Spec.varCentred (val_main_v22 (F := Ideal) x0 x2 x3) x1 x4 x5 n := by
  have e : ∀ k : Fin 50000, idx_main_v37 (ix1 n) k = ix2 k n := fun k => funext fun a => Fin.ext (by match a with | ⟨0, _⟩ => rfl | ⟨1, _⟩ => rfl)
  have hs : (∑ k : Fin 50000, val_main_v36 (F := Ideal) x0 x1 x2 x3 x4 x5 (idx_main_v37 (ix1 n) k))
      = ∑ q : Fin 50000,
          (Cert.Spec.y (val_main_v22 (F := Ideal) x0 x2 x3) x1 x4 x5 q n
            - Cert.Spec.mean (val_main_v22 (F := Ideal) x0 x2 x3) x1 x4 x5 n)
          * (Cert.Spec.y (val_main_v22 (F := Ideal) x0 x2 x3) x1 x4 x5 q n
            - Cert.Spec.mean (val_main_v22 (F := Ideal) x0 x2 x3) x1 x4 x5 n) :=
    Finset.sum_congr rfl fun k _ => by rw [e k, val_main_v36_apply, Ideal.mulf_def, dev_eq]
  rw [val_main_v39_apply, val_main_v37_apply, val_main_v38_apply, val_main_cst_8_apply, val_main_cst_7_apply,
    Ideal.hostDivf_def, Ideal.ofBits_def, Ideal.ofBits_def, Ideal.ofBits_zero_f32, zero_add, hs]
  rfl

/-- The normalisation's divisor: the square root of the variance plus the offset, read at the column. -/
theorem std_eq (p : Fin 50000) (n : Fin 128) :
    val_main_v47 (F := Ideal) x0 x1 x2 x3 x4 x5 (ix2 p n)
      = Ideal.sqrt (Cert.Spec.varCentred (val_main_v22 (F := Ideal) x0 x2 x3) x1 x4 x5 n + Cert.Spec.cEps) := by
  have e : idx_main_v46 (idx_main_v47 (ix2 p n)) = ix1 n := funext fun a => Fin.ext (by match a with | ⟨0, _⟩ => rfl)
  rw [val_main_v47_apply, val_main_v46_apply, val_main_v45_apply, val_main_v44_apply, val_main_v43_apply,
    val_main_cst_9_apply, Ideal.hostUnary_sqrt_def, Ideal.addf_def, Ideal.ofBits_def, e, var_eq]

/-- THE REFERENCE'S RESULT is the centred arrangement, with the aggregated features as its table. -/
theorem ref_result :
    Cert.ReferenceIdeal.ReadP.val_main_v56 (F := Ideal) x0 x1 x2 x3 x4 x5 x6 x7
      = fun j => Cert.Spec.outCentred (Cert.ReferenceIdeal.ReadP.val_main_v22 (F := Ideal) x0 x2 x3) x1 x4 x5 x6 x7 x0 (j 0) (j 1) := by
  funext j
  obtain ⟨p, n, rfl⟩ : ∃ (p : Fin 50000) (n : Fin 128), j = ix2 p n := ⟨j 0, j 1, eq_ix2 j⟩
  show val_main_v56 (F := Ideal) x0 x1 x2 x3 x4 x5 x6 x7 (ix2 p n)
    = Cert.Spec.outCentred (val_main_v22 (F := Ideal) x0 x2 x3) x1 x4 x5 x6 x7 x0 p n
  have e6 : idx_main_v49 (idx_main_v50 (ix2 p n)) = ix1 n := funext fun a => Fin.ext (by match a with | ⟨0, _⟩ => rfl)
  have e7 : idx_main_v52 (idx_main_v53 (ix2 p n)) = ix1 n := funext fun a => Fin.ext (by match a with | ⟨0, _⟩ => rfl)
  rw [val_main_v56_apply, val_main_v55_apply, val_main_call1_v0_apply, val_main_call1_cst_apply, val_main_v54_apply,
    val_main_v53_apply, val_main_v52_apply, val_main_v51_apply, val_main_v50_apply, val_main_v49_apply,
    val_main_v48_apply, dev_eq', std_eq, e6, e7,
    Ideal.addf_def, Ideal.maximumf_def, Ideal.addf_def, Ideal.mulf_def, Ideal.hostDivf_def, Ideal.ofBits_def]
  rfl

end Cert.RefValue

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibRowAggregate.lean ====
/-
  ROWS OF A TABLE ADDED TO AND READ THROUGH A COLUMN OF ROW NUMBERS, AT THE IDEAL INSTANCE.

  A table has `N` rows of `D` entries, shape `[N, D]`. A column `idx` of shape `[E, 1]` holds one integer per update
  (or result) row, of any bit width `w`, read as a SIGNED integer.

  * SCATTER-ADD (`scatterAdd_row_apply`). Updates of shape `[E, D]`; update row `e` is added, entry by entry, to the
    table row that `idx[e, 0]` names. The row number is NOT clamped: an update whose row number lies outside `[0, N)`
    is dropped. At the ideal instance floats are extended reals and the accumulation is the exact sum, so the result
    at `(n, d)` is the table's entry plus the sum of `upd[e, d]` over the update rows `e` whose row number is `n`
    (`landing idx n`) -- in whatever order the colliding updates are met, since the sum of extended reals over a
    finite set does not depend on an order.

  * GATHER (`gather_row_apply'`). The result `[E, D]` has, at `(e, d)`, the table's entry at row `srcRow idx e` and
    column `d`, where `srcRow idx e` is `idx[e, 0]` read signed and CLAMPED into `[0, N - 1]` (a negative row number
    reads row `0`, one past the end reads row `N - 1`). This holds for entries of any type.

  The asymmetry between the two (dropped against clamped) is that of the two operations themselves: a scatter ignores
  an update whose window falls outside the operand, a gather moves an out-of-bounds window back inside the operand.

  Both statements take the dimension numbers as a record `sd` / `gd` together with an equation saying that it is the
  row scatter / row gather of the two companion files; for a record whose fields are those literal lists the equation
  holds by `rfl`.
-/
import Idealize.ShloMosaic.Lib.ValueIdx
import Idealize.ShloMosaic.PureOps.Ideal
import proofs.«132494_j17480516894879_1_alg».proof.Proof.LibRowScatter
import proofs.«132494_j17480516894879_1_alg».proof.Proof.LibRowGather

noncomputable section

open scoped BigOperators
open Idealize.ShloMosaic Idealize.ShloMosaic.ValueIdx

namespace Cert.Lib.RowAggregate

/-- the table row that entry e of an index column names: read signed, clamped into [0, N − 1] -/
def srcRow {N E w : ℕ} (hN : 0 < N) (idx : IVec ⟨2, ![E, 1]⟩ w) (e : Fin E) : Fin N :=
  ⟨min (idx (ix2 e (0 : Fin 1))).toInt.toNat (N - 1), by omega⟩

/-- the update rows aimed at table row n: the index read signed and NOT clamped equals n -/
def landing {N E w : ℕ} (idx : IVec ⟨2, ![E, 1]⟩ w) (n : Fin N) : Finset (Fin E) :=
  Finset.univ.filter fun e => (idx (ix2 e (0 : Fin 1))).toInt = (n.val : Int)

/-- Membership in `landing`: update row `e` is aimed at table row `n` exactly when its row number, read signed, is `n`. -/
theorem mem_landing {N E w : ℕ} (idx : IVec ⟨2, ![E, 1]⟩ w) (n : Fin N) (e : Fin E) :
    e ∈ landing idx n ↔ (idx (ix2 e (0 : Fin 1))).toInt = (n.val : Int) := by
  unfold landing
  rw [Finset.mem_filter]
  exact ⟨fun h => h.2, fun h => ⟨Finset.mem_univ _, h⟩⟩

/-- THE SCATTER-ADD OF ROWS READ AT `(n, d)`: the table's entry plus the sum, over the update rows `e` whose row number
    is `n`, of `upd[e, d]`. The update indices `(e, d')` that land on `(n, d)` are exactly those with `e` aimed at `n`
    and `d' = d`, so `(e, d') ↦ e` and `e ↦ (e, d)` are inverse bijections between them and `landing idx n`, and the
    summands correspond. -/
theorem scatterAdd_row_apply {N E D w : ℕ} {φ : FTy} (sd : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1) (hsd : sd = Cert.Lib.RowScatter.rowScatter N E D wf)
    (x : FVec Ideal ⟨2, ![N, D]⟩ φ) (idx : IVec ⟨2, ![E, 1]⟩ w) (upd : FVec Ideal ⟨2, ![E, D]⟩ φ) (n : Fin N) (d : Fin D) :
    Host.scatterAdd (F := Ideal) sd x idx upd (ix2 n d) = x (ix2 n d) + ∑ e ∈ landing idx n, upd (ix2 e d) := by
  subst hsd
  show Ideal.hostScatterAdd (Cert.Lib.RowScatter.rowScatter N E D wf) x idx upd (ix2 n d) = _
  unfold Ideal.hostScatterAdd
  congr 1
  -- an update index that lands on `(n, d)`, in coordinates: its row is aimed at `n` and its column is `d`
  have key : ∀ j : (⟨2, ![E, D]⟩ : Shape).Idx,
      j ∈ Finset.univ.filter (fun j => (Cert.Lib.RowScatter.rowScatter N E D wf).resultIdx? j idx = some (ix2 n d)) →
      ∃ e : Fin E, j = ix2 e d ∧ e ∈ landing idx n := by
    intro j hj
    obtain ⟨e, d', rfl⟩ : ∃ (e : Fin E) (d' : Fin D), j = ix2 e d' := ⟨j 0, j 1, eq_ix2 j⟩
    obtain ⟨he, rfl⟩ := (Cert.Lib.RowScatter.resultIdx_row wf idx e d' n d).mp (Finset.mem_filter.mp hj).2
    exact ⟨e, rfl, (mem_landing idx n e).mpr he⟩
  refine Finset.sum_nbij' (fun j => (j 0 : Fin E)) (fun e => ix2 e d) ?_ ?_ ?_ ?_ ?_
  · intro j hj
    obtain ⟨e, rfl, he⟩ := key j hj
    exact he
  · intro e he
    exact Finset.mem_filter.mpr ⟨Finset.mem_univ _,
      (Cert.Lib.RowScatter.resultIdx_row wf idx e d n d).mpr ⟨(mem_landing idx n e).mp he, rfl⟩⟩
  · intro j hj
    obtain ⟨e, rfl, _⟩ := key j hj
    rfl
  · intro e _
    rfl
  · intro j hj
    obtain ⟨e, rfl, _⟩ := key j hj
    rfl

/-- THE GATHER OF ROWS READ AT `(e, d)`: the table at row `srcRow idx e` (the row number `idx[e, 0]` read signed and
    clamped into `[0, N - 1]`) and column `d`. -/
theorem gather_row_apply' {N E D w : ℕ} {α : Type} (hN : 0 < N) (gd : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D]) (hgd : gd = Idealize.ShloMosaic.RowGather.rowDims N E D wf)
    (x : (⟨2, ![N, D]⟩ : Shape).Idx → α) (idx : IVec ⟨2, ![E, 1]⟩ w) (e : Fin E) (d : Fin D) :
    Host.gather gd x idx (ix2 e d) = x (ix2 (srcRow hN idx e) d) := by
  subst hgd
  exact Idealize.ShloMosaic.RowGather.gather_row_apply hN wf x idx e d

/-! ## The one-dimensional cousin: entries of a vector read through a column of positions

A vector `x : [N]`, a column `idx : [E, 1]` of positions, result `[E]`: entry `e` of the result is the vector at position
`idx[e, 0]`, read signed and clamped into `[0, N - 1]` (the same `srcRow`, the vector being a table of `N` rows with no
column axis). In particular every entry of the result is SOME entry of the vector, and for that alone nothing about
the dimension numbers is needed. -/

/-- Every entry a gather of a vector `[N]` through an index column `[E, 1]` returns is some entry of the vector, whatever
    the dimension numbers: the gather reads the vector at a computed position, and a position of a vector is its one
    coordinate. -/
theorem gather_vec_mem {N E w : ℕ} {α : Type} (gd : GatherDims ⟨1, ![N]⟩ ⟨2, ![E, 1]⟩ ⟨1, ![E]⟩)
    (x : (⟨1, ![N]⟩ : Shape).Idx → α) (idx : IVec ⟨2, ![E, 1]⟩ w) (e : Fin E) :
    ∃ n : Fin N, Host.gather gd x idx (ix1 e) = x (ix1 n) :=
  ⟨gd.operandIdx (ix1 e) idx 0, congrArg x (eq_ix1 (gd.operandIdx (ix1 e) idx))⟩

/-- The dimension numbers of the gather of single entries of a vector `[N]` at a column `[E, 1]` of positions, result
    `[E]`: no offset axis, the vector's one axis collapsed and addressed by the position's one component, the index
    vector along axis 1, slices of one entry. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES OF A VECTOR READ AT `e`: the vector at position `srcRow idx e` (`idx[e, 0]` read signed and
    clamped into `[0, N - 1]`). On the vector's one axis the batching and the offset coordinates are `0` (it is a
    collapsed axis), and the start is the position clamped so that a slice of one entry fits. -/
theorem gather_vec_apply {N E w : ℕ} {α : Type} (hN : 0 < N) (gd : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hgd : gd = vecDims N E wf)
    (x : (⟨1, ![N]⟩ : Shape).Idx → α) (idx : IVec ⟨2, ![E, 1]⟩ w) (e : Fin E) :
    Host.gather gd x idx (ix1 e) = x (ix1 (srcRow hN idx e)) := by
  subst hgd
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowAggregate

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.AggregateFinite.lean ====
/-
  The reference's aggregated features are real numbers whenever the input features are.

  The aggregated table is, entry by entry, a choice between two values: where the node's in-degree is positive, the
  sum of the feature rows of its in-neighbours divided by max(in-degree, 1); elsewhere the node's own feature. The own
  feature is real by hypothesis. The sum is the scatter-add, onto a table of zeros, of the gathered feature rows: at
  (n, d) it is 0 plus the sum, over the edges aimed at node n, of the feature at (source row of the edge, d) -- a
  finite sum of reals, so real, however many edges collide. The divisor max(in-degree, 1) is at least 1 whatever the
  in-degree is (a maximum is at least its second argument), in particular it is not zero, so the quotient is the
  product with the divisor's inverse; that inverse is a real number -- the real reciprocal when the divisor is real,
  and 0 when the divisor is +infinity, as the extended reals have it -- so nothing has to be known about the
  in-degree, not even that it is finite.
-/
import proofs.«132494_j17480516894879_1_alg».proof.Proof.RefRead
import proofs.«132494_j17480516894879_1_alg».proof.Proof.LibRowAggregate
import proofs.«132494_j17480516894879_1_alg».proof.Proof.LibFinite

noncomputable section

namespace Cert.AggregateFinite

open Cert.ReferenceIdeal Cert.ReferenceIdeal.Gen Cert.ReferenceIdeal.ReadP
open Idealize.ShloMosaic Idealize.ShloMosaic.ValueIdx
open Cert.Lib.Finite (IsReal)
open Cert.Lib.RowAggregate

/-- The single-precision pattern of `1.0` denotes the extended real `1`. -/
theorem ofBits_one : Ideal.ofBits .f32 0x3F800000#32 = 1 := by
  simp [Ideal.ofBits, Ideal.ieee, -EReal.coe_mul]; norm_num

/-- A real divided by an extended real that is at least 1 is a real: the divisor is not zero, and its inverse is the
    real reciprocal, or 0 when the divisor is +infinity. -/
theorem div_of_one_le {a y : EReal} (ha : IsReal a) (hy : 1 ≤ y) : IsReal (Ideal.div a y) := by
  have hy0 : y ≠ 0 := fun h => absurd (h ▸ hy) (not_le.mpr zero_lt_one)
  rw [Ideal.div, if_neg hy0]
  obtain ⟨r, rfl⟩ := ha
  induction y using EReal.rec with
  | bot => exact absurd hy (not_le.mpr (EReal.bot_lt_zero.trans zero_lt_one))
  | top => rw [EReal.inv_top, mul_zero]; exact Cert.Lib.Finite.zero
  | coe s => rw [← EReal.coe_inv, ← EReal.coe_mul]; exact Cert.Lib.Finite.coe _

/-- Every gathered entry is an entry of the feature table (the one at the edge's source row, clamped into the table),
    so it is real. -/
theorem gathered_real (x0 : (⟨S50000x128, .f32⟩ : BufTy).Contents (Elt Ideal))
    (x2 : (⟨S1600000, .i32⟩ : BufTy).Contents (Elt Ideal)) (hx0 : ∀ j, IsReal (x0 j)) (e : Fin 1600000) (d : Fin 128) :
    IsReal (val_main_v6 (F := Ideal) x0 x2 (ix2 e d)) := by
  have h := gather_row_apply' (N := 50000) (E := 1600000) (D := 128) (w := 32) (by decide)
    gather_S50000x128_S1600000x1_S1600000x128_1_0_n_n_0_1_1128
    Cert.ReferenceIdeal.Facts₀.gather_S50000x128_S1600000x1_S1600000x128_1_0_n_n_0_1_1128_wf rfl
    x0 (val_main_v5 (F := Ideal) x2) e d
  unfold val_main_v6
  exact Eq.mpr (congrArg IsReal h) (hx0 _)

/-- The table of zeros the rows are added onto. -/
theorem zeros_apply (j : S50000x128.Idx) : val_main_v7 (F := Ideal) j = 0 := by
  rw [val_main_v7_apply, val_main_cst_apply, Ideal.ofBits_def, Ideal.ofBits_zero_f32]

/-- Every entry of the summed rows is real: zero plus a finite sum of gathered entries. -/
theorem summed_real (x0 : (⟨S50000x128, .f32⟩ : BufTy).Contents (Elt Ideal))
    (x2 x3 : (⟨S1600000, .i32⟩ : BufTy).Contents (Elt Ideal)) (hx0 : ∀ j, IsReal (x0 j)) (n : Fin 50000) (d : Fin 128) :
    IsReal (val_main_v9 (F := Ideal) x0 x2 x3 (ix2 n d)) := by
  have h := scatterAdd_row_apply (N := 50000) (E := 1600000) (D := 128) (w := 32) (φ := .f32)
    scatter_S50000x128_S1600000x1_S1600000x128_1_0_0_1
    Cert.ReferenceIdeal.Facts₀.scatter_S50000x128_S1600000x1_S1600000x128_1_0_0_1_wf rfl
    (val_main_v7 (F := Ideal)) (val_main_v8 (F := Ideal) x3) (val_main_v6 (F := Ideal) x0 x2) n d
  unfold val_main_v9
  refine Eq.mpr (congrArg IsReal h) ?_
  refine Cert.Lib.Finite.add ?_ (Cert.Lib.Finite.sum _ _ fun e _ => gathered_real x0 x2 hx0 e d)
  rw [zeros_apply]
  exact Cert.Lib.Finite.zero

/-- The divisor max(in-degree, 1) is at least 1 at every entry. -/
theorem divisor_one_le (x3 : (⟨S1600000, .i32⟩ : BufTy).Contents (Elt Ideal)) (j : S50000x128.Idx) :
    1 ≤ val_main_v19 (F := Ideal) x3 j := by
  rw [val_main_v19_apply, val_main_v18_apply, val_main_v17_apply, val_main_v16_apply, val_main_cst_4_apply,
    Ideal.maximumf_def, Ideal.ofBits_def, ofBits_one]
  exact le_max_right _ _

/-- THE AGGREGATED FEATURES ARE REAL: each entry is the node's own feature or the quotient of a real sum by a divisor
    that is at least 1. -/
theorem aggregated_real (x0 : (⟨S50000x128, .f32⟩ : BufTy).Contents (Elt Ideal))
    (x2 x3 : (⟨S1600000, .i32⟩ : BufTy).Contents (Elt Ideal)) (hx0 : ∀ j, Cert.Lib.Finite.IsReal (x0 j)) :
    ∀ j, Cert.Lib.Finite.IsReal (Cert.ReferenceIdeal.ReadP.val_main_v22 (F := Ideal) x0 x2 x3 j) := by
  intro j
  rw [val_main_v22_apply]
  unfold Scalar.select
  split
  · rw [val_main_v20_apply, Ideal.hostDivf_def]
    refine div_of_one_le ?_ (divisor_one_le x3 j)
    obtain ⟨n, d, rfl⟩ : ∃ (n : Fin 50000) (d : Fin 128), j = ix2 n d := ⟨j 0, j 1, eq_ix2 j⟩
    exact summed_real x0 x2 x3 hx0 n d
  · exact hx0 j

end Cert.AggregateFinite

end
-- ==== Proof.FiniteInputs.lean ====
/-
  From the precondition to "every entry of every real-valued input is a real number".

  The precondition is a conjunction of six tests, one per real-valued input array: "every entry x of the array has
  |x| < +∞". On the extended reals |x| = max x (−x), which is +∞ exactly at the two infinities, so the test holds
  of an entry exactly when the entry is a real number. Each test is a reduction by "and" over the whole array of the
  entrywise comparisons, started from 1: it is 1 only if every comparison is 1. The conjunction of the six tests is a
  chain of "and"s, 1 only if every test is 1.
-/
import proofs.«132494_j17480516894879_1_alg».proof.Defs
import Idealize.ShloMosaic.Lib.ReduceAll
import proofs.«132494_j17480516894879_1_alg».proof.Proof.LibFinite

namespace Cert.FiniteInputs

open Idealize.ShloMosaic Cert.Lib.Finite Cert.Pre_finite_inputs

/-- The shape with no axes has one index. -/
instance : Subsingleton S_.Idx := ⟨fun a b => funext fun d => d.elim0⟩

/-- The single-precision word 0x7F800000 (exponent field all ones, fraction zero, sign clear) denotes +∞. -/
theorem ofBits_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- One test: if the "and" over a whole array of the comparisons |x j| < +∞ is 1, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (i : S_.Idx) (e : Host.reduce IntOp.andi
          (cmpf .olt (Host.absf x) (broadcastInDim s ![] hb (constant (F := Ideal) S_ .f32 0x7F800000#32)))
          (constantI S_ 1 1#1) hr hu i = 1#1) (j : s.Idx) : IsReal (x j) :=
  isReal_of_abs_lt_inf (x j) (Host.reduce_andi_all _ _ hr hu _ e j)

/-- The precondition gives: every entry of each of the six real-valued inputs is a real number. -/
theorem reals_of_pre [Cert.Pre_finite_inputs.Facts]
    (x0 : FVec Ideal S50000x128 .f32) (x1 : FVec Ideal S50000x1 .f32) (x2 : IVec S1600000 32) (x3 : IVec S1600000 32)
    (x4 : FVec Ideal S128x128 .f32) (x5 : FVec Ideal S128 .f32) (x6 : FVec Ideal S128 .f32) (x7 : FVec Ideal S128 .f32)
    (h : Cert.Pre_finite_inputs.fn (F := Ideal) x0 x1 x2 x3 x4 x5 x6 x7 = fun _ => 1#1) :
    (∀ j, IsReal (x0 j)) ∧ (∀ j, IsReal (x1 j)) ∧ (∀ j, IsReal (x4 j)) ∧ (∀ j, IsReal (x5 j)) ∧ (∀ j, IsReal (x6 j))
      ∧ (∀ j, IsReal (x7 j)) := by
  have h1 := congrFun h (fun a => a.elim0)
  dsimp only [fn, fn_part1] at h1
  obtain ⟨h2, e7⟩ := IntOp.andi_eq_one.1 h1
  obtain ⟨h3, e6⟩ := IntOp.andi_eq_one.1 h2
  obtain ⟨h4, e5⟩ := IntOp.andi_eq_one.1 h3
  obtain ⟨h5, e4⟩ := IntOp.andi_eq_one.1 h4
  obtain ⟨e0, e1⟩ := IntOp.andi_eq_one.1 h5
  exact ⟨all_real x0 _ _ _ _ e0, all_real x1 _ _ _ _ e1, all_real x4 _ _ _ _ e4, all_real x5 _ _ _ _ e5,
    all_real x6 _ _ _ _ e6, all_real x7 _ _ _ _ e7⟩

end Cert.FiniteInputs
-- ==== Proof.LibVariance.lean ====
/- A general lemma about the two ways of writing a variance.

   For finitely many REAL numbers y_i and N their count (N ≠ 0), with S = Σ y_i and Q = Σ y_i²:
       Q/N − (S/N)²  =  (Σ (y_i − S/N)²) / N,
   since Σ (y_i − μ)² = Q − 2μS + Nμ² and μ = S/N gives Q − S²/N. The second theorem is the same equation
   between extended reals, each y_i a real seen as an extended real, every quotient the ideal instance's division
   by the real N: all the quantities are then real and the equation is the real one under the coercion. On
   extended reals in general the law is false (it distributes a product over a sum), which is why it is stated
   at finite entries only. Batch normalisation's statistics meet here: one program accumulates S and Q in one
   pass, the other centres first. -/
import Idealize.ShloMosaic.PureOps.Ideal

namespace Cert.Lib.Variance

open Idealize.ShloMosaic

variable {ι : Type} [Fintype ι]

/-- A finite sum of reals, each seen as an extended real, is the real sum seen as an extended real. -/
theorem coe_sum {κ : Type} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: the mean of the squares less the square of the mean is the mean of the squared deviations
    (quotients written as products with 1/N, the form the extended-real division by a real unfolds to). -/
theorem real_var (y : ι → ℝ) (N : ℝ) (hN : (Fintype.card ι : ℝ) = N) (h0 : N ≠ 0) :
    (∑ i, y i * y i) * (1 / N) - (∑ i, y i) * (1 / N) * ((∑ i, y i) * (1 / N))
      = (∑ i, (y i - (∑ j, y j) * (1 / N)) * (y i - (∑ j, y j) * (1 / N))) * (1 / N) := by
  have hsq : ∀ (μ : ℝ), ∑ i, (y i - μ) * (y i - μ) = (∑ i, y i * y i) - 2 * μ * (∑ i, y i) + N * (μ * μ) := by
    intro μ
    have : ∀ i, (y i - μ) * (y i - μ) = y i * y i - 2 * μ * y i + μ * μ := fun i => by ring
    simp only [this, Finset.sum_add_distrib, Finset.sum_sub_distrib, ← Finset.mul_sum, Finset.sum_const,
      Finset.card_univ, nsmul_eq_mul, hN]
    ring
  rw [hsq]
  field_simp
  ring

/-- The same between extended reals at finite entries, in the ideal instance's spelling: every quotient is
    the division by the real N. -/
theorem ideal_var (y : ι → ℝ) (N : ℝ) (hN : (Fintype.card ι : ℝ) = N) (h0 : N ≠ 0) :
    Ideal.div (∑ i, ((y i : ℝ) : EReal) * ((y i : ℝ) : EReal)) (N : EReal)
        - Ideal.div (∑ i, ((y i : ℝ) : EReal)) (N : EReal) * Ideal.div (∑ i, ((y i : ℝ) : EReal)) (N : EReal)
      = Ideal.div (∑ i, (((y i : ℝ) : EReal) - Ideal.div (∑ j, ((y j : ℝ) : EReal)) (N : EReal))
            * (((y i : ℝ) : EReal) - Ideal.div (∑ j, ((y j : ℝ) : EReal)) (N : EReal))) (N : EReal) := by
  simp only [Ideal.div_coe h0, ← EReal.coe_mul, coe_sum, ← EReal.coe_sub]
  exact congrArg Real.toEReal (real_var y N hN h0)

end Cert.Lib.Variance
-- ==== Proof.BatchNormLaw.lean ====
/-
  The two arrangements of batch normalisation agree at real inputs.

  With y(p,n) the layer's output before normalisation, S = Σ_p y, Q = Σ_p y², μ = S/N (N = 50000):
    * every y(p,n) is a real number when the entries of h0, w, b and sn are (sums and products of reals);
    * so the one-pass variance Q/N − μ² equals the centred variance (Σ_p (y − μ)²)/N — the real identity,
      read under the coercion into the extended reals;
    * the centred variance is a real v ≥ 0 (a mean of squares of reals), the offset ε is a positive real, so
      s = v + ε is a positive real, and for EVERY extended real a
          a · s^(-1/2) = a / √s,
      both sides being a · (√s)⁻¹ with √s a nonzero real.
  The scale g, the shift be and the residual x are arbitrary extended reals: they sit in the same places on both
  sides and are never moved.
-/
import proofs.«132494_j17480516894879_1_alg».proof.Proof.Spec
import proofs.«132494_j17480516894879_1_alg».proof.Proof.LibVariance
import proofs.«132494_j17480516894879_1_alg».proof.Proof.LibFinite

noncomputable section

namespace Cert.BatchNormLaw

open Idealize.ShloMosaic Idealize.ShloMosaic.ValueIdx Cert.Lib.Finite

/-- The single-precision word 0x47435000 denotes 50000: exponent field 142, fraction 4411392, so
    (2²³ + 4411392) · 2^(142 − 127 − 23) = 12800000 / 256. -/
theorem cN_eq : Cert.Spec.cN = ((50000 : ℝ) : EReal) := by
  show Ideal.ofBits .f32 0x47435000#32 = _
  simp [Ideal.ofBits, Ideal.ieee, -EReal.coe_mul]; norm_num

/-- The single-precision word 0x3727C5AC denotes 10995116 · 2⁻⁴⁰ (exponent field 110, fraction 2606508). -/
theorem cEps_eq : Cert.Spec.cEps = (((10995116 : ℝ) * (2 : ℝ) ^ (-40 : ℤ) : ℝ) : EReal) := by
  show Ideal.ofBits .f32 0x3727C5AC#32 = _
  simp [Ideal.ofBits, Ideal.ieee, -EReal.coe_mul]

/-- The variance offset is a positive real. -/
theorem cEps_pos : ∃ e : ℝ, 0 < e ∧ Cert.Spec.cEps = (e : EReal) :=
  ⟨_, by positivity, cEps_eq⟩

/-- For a positive real s and any extended real a: a · s^(-1/2) = a / √s. -/
theorem mul_rsqrt_eq_div_sqrt (a : EReal) {s : ℝ} (hs : 0 < s) :
    a * Ideal.rsqrt (s : EReal) = Ideal.div a (Ideal.sqrt (s : EReal)) := by
  have hq : Real.sqrt s ≠ 0 := (Real.sqrt_pos.mpr hs).ne'
  rw [Ideal.rsqrt_coe, Ideal.sqrt_coe, if_neg (not_lt.mpr hs.le), if_neg hs.ne', if_neg (not_lt.mpr hs.le),
    Ideal.div_coe hq, one_div]

variable (h0 : (⟨2, ![50000, 128]⟩ : Shape).Idx → EReal) (sn : (⟨2, ![50000, 1]⟩ : Shape).Idx → EReal)
  (w : (⟨2, ![128, 128]⟩ : Shape).Idx → EReal) (b g be : (⟨1, ![128]⟩ : Shape).Idx → EReal)
  (x : (⟨2, ![50000, 128]⟩ : Shape).Idx → EReal)

/-- Every entry of the layer's output before normalisation is a real number. -/
theorem y_real (hh0 : ∀ j, IsReal (h0 j)) (hsn : ∀ j, IsReal (sn j)) (hw : ∀ j, IsReal (w j))
    (hb : ∀ j, IsReal (b j)) (p : Fin 50000) (n : Fin 128) : IsReal (Cert.Spec.y h0 sn w b p n) := by
  unfold Cert.Spec.y Cert.Spec.lin
  exact mul (add (sum _ _ fun k _ => mul (hh0 _) (hw _)) (hb _)) (hsn _)

/-- The one-pass variance is the centred variance. -/
theorem varOnePass_eq_varCentred (hh0 : ∀ j, IsReal (h0 j)) (hsn : ∀ j, IsReal (sn j)) (hw : ∀ j, IsReal (w j))
    (hb : ∀ j, IsReal (b j)) (n : Fin 128) :
    Cert.Spec.varOnePass h0 sn w b n = Cert.Spec.varCentred h0 sn w b n := by
  have hy : ∀ p, IsReal (Cert.Spec.y h0 sn w b p n) := fun p => y_real h0 sn w b hh0 hsn hw hb p n
  choose yr hyr using hy
  unfold Cert.Spec.varOnePass Cert.Spec.varCentred Cert.Spec.mean Cert.Spec.colSum Cert.Spec.colSq
  simp only [hyr]
  rw [cN_eq]
  exact Cert.Lib.Variance.ideal_var yr 50000 (by simp) (by norm_num)

/-- The centred variance is a nonnegative real. -/
theorem varCentred_real_nonneg (hh0 : ∀ j, IsReal (h0 j)) (hsn : ∀ j, IsReal (sn j)) (hw : ∀ j, IsReal (w j))
    (hb : ∀ j, IsReal (b j)) (n : Fin 128) :
    ∃ v : ℝ, 0 ≤ v ∧ Cert.Spec.varCentred h0 sn w b n = (v : EReal) := by
  have hy : ∀ p, IsReal (Cert.Spec.y h0 sn w b p n) := fun p => y_real h0 sn w b hh0 hsn hw hb p n
  choose yr hyr using hy
  have hN : (50000 : ℝ) ≠ 0 := by norm_num
  refine ⟨(∑ p, (yr p - (∑ q, yr q) * (1 / 50000)) * (yr p - (∑ q, yr q) * (1 / 50000))) * (1 / 50000), ?_, ?_⟩
  · exact mul_nonneg (Finset.sum_nonneg fun p _ => mul_self_nonneg _) (by norm_num)
  · unfold Cert.Spec.varCentred Cert.Spec.mean Cert.Spec.colSum
    simp only [hyr]
    rw [cN_eq]
    simp only [Ideal.div_coe hN, ← EReal.coe_mul, Cert.Lib.Variance.coe_sum, ← EReal.coe_sub]

/-- THE LAW: at real h0, sn, w and b the one-pass arrangement and the centred arrangement give the same
    extended real at every position, whatever the scale, the shift and the residual are. -/
theorem outOnePass_eq_outCentred
    (h0 : (⟨2, ![50000, 128]⟩ : Shape).Idx → EReal) (sn : (⟨2, ![50000, 1]⟩ : Shape).Idx → EReal)
    (w : (⟨2, ![128, 128]⟩ : Shape).Idx → EReal) (b g be : (⟨1, ![128]⟩ : Shape).Idx → EReal)
    (x : (⟨2, ![50000, 128]⟩ : Shape).Idx → EReal)
    (hh0 : ∀ j, Cert.Lib.Finite.IsReal (h0 j)) (hsn : ∀ j, Cert.Lib.Finite.IsReal (sn j))
    (hw : ∀ j, Cert.Lib.Finite.IsReal (w j)) (hb : ∀ j, Cert.Lib.Finite.IsReal (b j)) (p : Fin 50000) (n : Fin 128) :
    Cert.Spec.outOnePass h0 sn w b g be x p n = Cert.Spec.outCentred h0 sn w b g be x p n := by
  obtain ⟨v, hv0, hv⟩ := varCentred_real_nonneg h0 sn w b hh0 hsn hw hb n
  obtain ⟨e, he0, he⟩ := cEps_pos
  have hs : 0 < v + e := add_pos_of_nonneg_of_pos hv0 he0
  unfold Cert.Spec.outOnePass Cert.Spec.outCentred
  rw [varOnePass_eq_varCentred h0 sn w b hh0 hsn hw hb n, hv, he, ← EReal.coe_add, mul_rsqrt_eq_div_sqrt _ hs]

end Cert.BatchNormLaw

end
-- ==== Proof.KernelRun.lean ====
/-
  The kernel program's run with its result array named.

  From any launch memory with zero counters, every weakly fair execution of the program on the cores terminates without
  a fault, and in every final state, on every core: the result buffer holds the contents the last segment boundary
  assigns to it, and each of the eight argument arrays holds what it held at launch.

  The contents at a segment boundary are a fold from the launch memory through the program's segments: a stretch of
  host operations applies those operations' functions to the buffers they write; a pipelined region leaves each of its
  output arrays at the fold of its write-backs over all grid points and every other buffer as it was entered. Two
  readings of the fold are stated beside the run: the result buffer at the last boundary is the second region's output
  array number 6 after all of that region's points, and each array of the first region, at that region's exit, is that
  region's array after all of its points.
-/
import proofs.«132494_j17480516894879_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The result buffer at the last boundary is the second region's output array 6 after all of its grid points. -/
theorem result_is_region1_output (m : (ℓ : Loc nD τ sig) → Buf (Elt F) ℓ) (ρ : Dev nD → PrngReg) (c : Dev nD) :
    W6 m ρ c (Proc.devRef .tc main_v37) = (dat1 (V5 m ρ) c).arrAt 6 cfg1.N :=
  W6_arr m ρ c 6

/-- Each array of the first region, at that region's exit, is the region's array after all of its grid points. -/
theorem stats_arrays (m : (ℓ : Loc nD τ sig) → Buf (Elt F) ℓ) (ρ : Dev nD → PrngReg) (c : Dev nD) (w : Fin cfg0.W) :
    W4 m ρ c (Proc.devRef .tc (Pipeline.arrRef spec0 w)) = (dat0 (V3 m ρ) c).arrAt w cfg0.N :=
  W4_arr m ρ c w

set_option backward.isDefEq.respectTransparency.types false in
/-- THE RUN, the result named: every weakly fair execution terminates without a fault; every final state has, on each
    core, the result buffer at the last boundary's contents and the eight argument arrays as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.NamedRun

end
-- ==== Proof.StatsPieces.lean ====
/-
  What one grid point of the first kernel leaves in its three output buffers, as values.

  The body stores the scaled linear map of the point's block of rows (the first payload below), and adds the block's
  column sums and the column sums of its squares into two resident rows. At the first point the two rows are cleared
  first, so the point leaves "zero row plus the block's sums"; at every later point it leaves "what the point before
  left plus the block's sums". Each equation reads the run's found pieces back as the one store that covers the
  buffer, whose loads read whole buffers.
-/
import proofs.«132494_j17480516894879_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.StatsRegion

open Cert.KernelIdeal Cert.KernelIdeal.Gen

variable {F : FTy → Type} [FloatOps F]

theorem hz : (![0, 0] : Fin 2 → Nat) = fun _ => 0 := funext fun a => by fin_cases a <;> rfl

/-! ## A point after the first: the rows are read as the point before left them -/

theorem caseRest_4 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i)
    (x0 : Vec F S5000x128 .f32) (x1 : Vec F S5000x1 .f32) (x2 : Vec F S128x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x2 x3 x1 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

theorem caseRest_5 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i)
    (x0 : Vec F S5000x128 .f32) (x1 : Vec F S5000x1 .f32) (x2 : Vec F S128x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x2 x3 x1 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

theorem caseRest_6 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i)
    (x0 : Vec F S5000x128 .f32) (x1 : Vec F S5000x1 .f32) (x2 : Vec F S128x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x2 x3 x1 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

/-! ## The first point: the rows are cleared, then read back -/

theorem caseFirst_4 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i)
    (x0 : Vec F S5000x128 .f32) (x1 : Vec F S5000x1 .f32) (x2 : Vec F S128x128 .f32) (x3 : Vec F S1x128 .f32) :
    out0_A_4 c i a1 h1 a2 h2 a3 h3 a4 h4 a5 h5 a6 h6 a7 h7 hc x0 x1 x2 x3 = k0_pay3 x0 x2 x3 x1 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

theorem caseFirst_5 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i)
    (x0 : Vec F S5000x128 .f32) (x1 : Vec F S5000x1 .f32) (x2 : Vec F S128x128 .f32) (x3 : Vec F S1x128 .f32) :
    out0_A_5 c i a1 h1 a2 h2 a3 h3 a4 h4 a5 h5 a6 h6 a7 h7 hc x0 x1 x2 x3 = k0_pay4 x0 x2 x3 x1 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

theorem caseFirst_6 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i)
    (x0 : Vec F S5000x128 .f32) (x1 : Vec F S5000x1 .f32) (x2 : Vec F S128x128 .f32) (x3 : Vec F S1x128 .f32) :
    out0_A_6 c i a1 h1 a2 h2 a3 h3 a4 h4 a5 h5 a6 h6 a7 h7 hc x0 x1 x2 x3 = k0_pay5 x0 x2 x3 x1 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S5000x1) hz, View.ld_unit_zero (S := S128x128) hz, View.ld_unit_zero (S := S1x128) hz]

end Cert.KernelIdeal.StatsRegion

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.StatsPayload.lean ====
/-
  The first kernel's arithmetic on one block of rows, read entry by entry over the extended reals.

  On a block x0 (5000 × 128) of aggregated features, the weight matrix x2 as stored for the kernel (128 × 128, input
  axis first), the bias row x3 (1 × 128) and the block's column of node scales x1 (5000 × 1):

    scaled(r, n) = (Σ_k x0(r,k) · x2(k,n) + x3(0,n)) · x1(r,0)

  is what the body stores for the block; it then adds Σ_r scaled(r, n) to a resident row, and Σ_r scaled(r, n)² to
  another. The matrix product is the plain contraction into a zero accumulator, the change of float format in front
  of it is the identity, the bias is one row repeated down the block, the scale one column repeated along it.
-/
import proofs.«132494_j17480516894879_1_alg».proof.Proof.Gen.KernelIdeal.Skeleton
import proofs.«132494_j17480516894879_1_alg».proof.Proof.LibPlainMatmul
import proofs.«132494_j17480516894879_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open Idealize.ShloMosaic Idealize.ShloMosaic.ValueIdx

namespace Cert.KernelIdeal.StatsRegion

open Cert.KernelIdeal Cert.KernelIdeal.Gen

/-- A sum of an a × b matrix along axis 0, at the exact values: at column n the sum of that column. -/
theorem axis0Sum_apply {a b : ℕ} (v : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (n : Fin b) :
    multiReduction .add [0] ⟨1, ![b]⟩ v acc h hφ hacc (ix1 n) = ∑ r : Fin a, v (ix2 r n) := by
  refine (Ideal.multiReduction_add_single v acc h hφ hacc (ix1 n)).trans ?_
  refine Finset.sum_congr rfl fun r _ => congrArg v ?_
  funext ax
  match ax with
  | ⟨0, _⟩ => exact Fin.ext rfl
  | ⟨1, _⟩ => exact Fin.ext rfl

/-- The block's scaled linear map at row r, column n. -/
def scaled (x0 : Vec Ideal S5000x128 .f32) (x2 : Vec Ideal S128x128 .f32) (x3 : Vec Ideal S1x128 .f32)
    (x1 : Vec Ideal S5000x1 .f32) (r : Fin 5000) (n : Fin 128) : EReal :=
  ((∑ k : Fin 128, x0 (ix2 r k) * x2 (ix2 k n)) + x3 (ix2 (0 : Fin 1) n)) * x1 (ix2 r (0 : Fin 1))

/-- What the body stores for the block is `scaled`, entry by entry. -/
theorem stored_apply (x0 : Vec Ideal S5000x128 .f32) (x2 : Vec Ideal S128x128 .f32) (x3 : Vec Ideal S1x128 .f32)
    (x1 : Vec Ideal S5000x1 .f32) (r : Fin 5000) (n : Fin 128) :
    k0_pay3 (F := Ideal) x0 x2 x3 x1 (ix2 r n) = scaled x0 x2 x3 x1 r n := by
  unfold k0_pay3 scaled
  rw [mulf_apply, addf_apply,
    Cert.LibPlainMatmul.matmul_eq_plain_zero_apply dot_S5000x128_S128x128_S5000x128_1_0_0_1_n_n rfl,
    broadcastTo_1b_ab_apply, Cert.Column.broadcastTo_a1_ab_apply, shapeCast_self]
  simp only [truncf_apply, shapeCast_self]

/-- The row of column sums after the block: what was there plus the block's column sums. -/
theorem sumRow_apply (x0 : Vec Ideal S5000x128 .f32) (x2 : Vec Ideal S128x128 .f32) (x3 : Vec Ideal S1x128 .f32)
    (x1 : Vec Ideal S5000x1 .f32) (prev : Vec Ideal S1x128 .f32) (n : Fin 128) :
    k0_pay4 (F := Ideal) x0 x2 x3 x1 prev (ix2 (0 : Fin 1) n)
      = prev (ix2 (0 : Fin 1) n) + ∑ r : Fin 5000, scaled x0 x2 x3 x1 r n := by
  unfold k0_pay4
  rw [addf_apply, shapeCast_self, shapeCast_a_1a_apply]
  refine congrArg (prev (ix2 (0 : Fin 1) n) + ·) ?_
  refine (axis0Sum_apply (a := 5000) (b := 128) _ _ _ _ _ n).trans ?_
  exact Finset.sum_congr rfl fun r _ => stored_apply x0 x2 x3 x1 r n

/-- The row of column sums of squares after the block. -/
theorem sqRow_apply (x0 : Vec Ideal S5000x128 .f32) (x2 : Vec Ideal S128x128 .f32) (x3 : Vec Ideal S1x128 .f32)
    (x1 : Vec Ideal S5000x1 .f32) (prev : Vec Ideal S1x128 .f32) (n : Fin 128) :
    k0_pay5 (F := Ideal) x0 x2 x3 x1 prev (ix2 (0 : Fin 1) n)
      = prev (ix2 (0 : Fin 1) n) + ∑ r : Fin 5000, scaled x0 x2 x3 x1 r n * scaled x0 x2 x3 x1 r n := by
  unfold k0_pay5
  rw [addf_apply, shapeCast_self, shapeCast_a_1a_apply]
  refine congrArg (prev (ix2 (0 : Fin 1) n) + ·) ?_
  refine (axis0Sum_apply (a := 5000) (b := 128) _ _ _ _ _ n).trans ?_
  refine Finset.sum_congr rfl fun r _ => ?_
  rw [mulf_apply, stored_apply]

/-- The cleared rows hold zero. -/
theorem clearedSum_apply (j : S1x128.Idx) : k0_pay1 (F := Ideal) j = 0 := by
  unfold k0_pay1
  exact Ideal.ofBits_zero_f32

theorem clearedSq_apply (j : S1x128.Idx) : k0_pay2 (F := Ideal) j = 0 := by
  unfold k0_pay2
  exact Ideal.ofBits_zero_f32

end Cert.KernelIdeal.StatsRegion

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.StatsValue.lean ====
/-
  The first kernel region as a whole: what its three output arrays hold after the last grid point, as functions of
  the arrays the region finds on entry, over the extended reals.

  The grid has ten points; point t works on rows 5000·t … 5000·t + 4999. With, for node p and channel n,

    rowOut(p, n) = (Σ_k feats(p,k) · wT(k,n) + bias(0,n)) · scale(p,0)

  point t stores rowOut on its rows (the first output, written back at every point, so the array ends at rowOut
  everywhere), and the two resident rows hold after point m the sum over the points t ≤ m of the block's column sums
  of rowOut, respectively of rowOut². They are written back once, after the last point, and a sum over ten
  consecutive blocks of 5000 is the sum over all 50000 nodes: the arrays end at Σ_p rowOut(p, n) and Σ_p rowOut(p, n)².
-/
import proofs.«132494_j17480516894879_1_alg».proof.Proof.StatsPieces
import proofs.«132494_j17480516894879_1_alg».proof.Proof.StatsPayload
import proofs.«132494_j17480516894879_1_alg».proof.Proof.LibGemmSplit
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.StatsRegion

open Cert.KernelIdeal Cert.KernelIdeal.Gen

variable (V : (c : Dev nD) → (b : Ref sig .tc) → Buf (Elt Ideal) ((c : Thread nD τ).loc b)) (c : Dev nD)

/-- The arrays the region reads, as it finds them. -/
abbrev feats : S50000x128.Idx → EReal := V c main_v22
abbrev wT : S128x128.Idx → EReal := V c main_v23
abbrev biasRow : S1x128.Idx → EReal := V c main_v24
abbrev scaleCol : S50000x1.Idx → EReal := V c main_arg1

/-- The layer's output before normalisation at node p, channel n. -/
def rowOut (p : Fin 50000) (n : Fin 128) : EReal :=
  ((∑ k : Fin 128, feats V c (ix2 p k) * wT V c (ix2 k n)) + biasRow V c (ix2 (0 : Fin 1) n)) * scaleCol V c (ix2 p (0 : Fin 1))

/-! ## The blocks the body reads -/

/-- The index maps over the grid: the row windows move with the point, the others stay. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem featsBlock (t : Fin cfg0.N) (r : Fin 5000) (k : Fin 128) (hp : 5000 * t.val + r.val < 50000) :
    (iblk0 V c 0 t : Vec Ideal S5000x128 .f32) (ix2 r k) = feats V c (ix2 ⟨5000 * t.val + r.val, hp⟩ k) := by
  obtain ⟨e0, e1, -⟩ := idx_in t
  show feats V c (((cfg0.win 0).blk t).view.emb (ix2 r k)) = _
  refine congrArg (feats V c) (funext fun a => Fin.ext ?_)
  match a with
  | ⟨0, _⟩ => show win0_0.index t (0 : Fin 2) * 5000 + 1 * r.val = 5000 * t.val + r.val; omega
  | ⟨1, _⟩ => show win0_0.index t (1 : Fin 2) * 128 + 1 * k.val = k.val; omega

theorem scaleBlock (t : Fin cfg0.N) (r : Fin 5000) (hp : 5000 * t.val + r.val < 50000) :
    (iblk0 V c 1 t : Vec Ideal S5000x1 .f32) (ix2 r (0 : Fin 1)) = scaleCol V c (ix2 ⟨5000 * t.val + r.val, hp⟩ (0 : Fin 1)) := by
  obtain ⟨-, -, e0, e1, -⟩ := idx_in t
  show scaleCol V c (((cfg0.win 1).blk t).view.emb (ix2 r (0 : Fin 1))) = _
  refine congrArg (scaleCol V c) (funext fun a => Fin.ext ?_)
  match a with
  | ⟨0, _⟩ => show win0_1.index t (0 : Fin 2) * 5000 + 1 * r.val = 5000 * t.val + r.val; omega
  | ⟨1, _⟩ => show win0_1.index t (1 : Fin 2) * 1 + 1 * 0 = 0; omega

theorem wBlock (t : Fin cfg0.N) (k n : Fin 128) :
    (iblk0 V c 2 t : Vec Ideal S128x128 .f32) (ix2 k n) = wT V c (ix2 k n) := by
  obtain ⟨-, -, -, -, e0, e1, -⟩ := idx_in t
  show wT V c (((cfg0.win 2).blk t).view.emb (ix2 k n)) = _
  refine congrArg (wT V c) (funext fun a => Fin.ext ?_)
  match a with
  | ⟨0, _⟩ => show win0_2.index t (0 : Fin 2) * 128 + 1 * k.val = k.val; omega
  | ⟨1, _⟩ => show win0_2.index t (1 : Fin 2) * 128 + 1 * n.val = n.val; omega

theorem biasBlock (t : Fin cfg0.N) (n : Fin 128) :
    (iblk0 V c 3 t : Vec Ideal S1x128 .f32) (ix2 (0 : Fin 1) n) = biasRow V c (ix2 (0 : Fin 1) n) := by
  obtain ⟨-, -, -, -, -, -, e0, e1, -⟩ := idx_in t
  show biasRow V c (((cfg0.win 3).blk t).view.emb (ix2 (0 : Fin 1) n)) = _
  refine congrArg (biasRow V c) (funext fun a => Fin.ext ?_)
  match a with
  | ⟨0, _⟩ => show win0_3.index t (0 : Fin 2) * 1 + 1 * 0 = 0; omega
  | ⟨1, _⟩ => show win0_3.index t (1 : Fin 2) * 128 + 1 * n.val = n.val; omega

/-- On point t's blocks the body's scaled linear map at row r is rowOut at node 5000·t + r. -/
theorem scaled_block (t : Fin cfg0.N) (r : Fin 5000) (n : Fin 128) (hp : 5000 * t.val + r.val < 50000) :
    scaled (iblk0 V c 0 t) (iblk0 V c 2 t) (iblk0 V c 3 t) (iblk0 V c 1 t) r n = rowOut V c ⟨5000 * t.val + r.val, hp⟩ n := by
  unfold scaled rowOut
  rw [scaleBlock V c t r hp, biasBlock V c t n]
  refine congrArg (· * _) (congrArg (· + _) (Finset.sum_congr rfl fun k _ => ?_))
  rw [featsBlock V c t r k hp, wBlock V c t k n]

/-! ## Ten blocks of 5000 -/

/-- The sum of f over the rows of block t (zero past the grid). -/
def blockSum (f : Fin 50000 → EReal) (t : ℕ) : EReal :=
  if h : t < 10 then ∑ r : Fin 5000, f ⟨5000 * t + r.val, by have := r.isLt; omega⟩ else 0

/-- The ten block sums add up to the sum over all nodes: only commutativity and associativity of + are used. -/
theorem range_blocks (f : Fin 50000 → EReal) : ∑ t ∈ Finset.range 10, blockSum f t = ∑ p : Fin 50000, f p := by
  rw [Finset.sum_range, Cert.LibGemmSplit.sum_blocks (n := 10) (b := 5000) (by norm_num) f]
  refine Finset.sum_congr rfl fun t _ => ?_
  unfold blockSum
  rw [dif_pos t.isLt]

/-! ## The outputs after each point -/

/-- After every point the first output's buffer holds the body's scaled linear map of the point's blocks. -/
theorem stored_at (t : Fin cfg0.N) :
    (outsAt0 V c t.val t.isLt).1 = k0_pay3 (F := Ideal) (iblk0 V c 0 t) (iblk0 V c 2 t) (iblk0 V c 3 t) (iblk0 V c 1 t) := by
  by_cases h0 : t.val % 10 = 0
  · rw [outsAt0_A V c t h0]
    dsimp only
    exact caseFirst_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact caseRest_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hh => h0 ((hcond0_0 t).mp hh)) (iblk0 V c 0 t) (iblk0 V c 1 t) (iblk0 V c 2 t) (iblk0 V c 3 t) _ _

/-- After point m the row of sums holds, at channel n, the block sums of rowOut over the points up to m: by induction on the point, the first point from the cleared row. -/
theorem sums_after (n : Fin 128) : ∀ (m : ℕ) (h : m < cfg0.N),
    ((outsAt0 V c m h).2.1 : Vec Ideal S1x128 .f32) (ix2 (0 : Fin 1) n)
      = ∑ t ∈ Finset.range (m + 1), blockSum (fun p => rowOut V c p n) t
  | 0, h => by
    rw [outsAt0_A V c ⟨0, h⟩ rfl]
    dsimp only
    refine (congrFun (caseFirst_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩)) (ix2 (0 : Fin 1) n)).trans ?_
    rw [sumRow_apply, clearedSum_apply, zero_add, Finset.sum_range_one]
    unfold blockSum
    rw [dif_pos (by norm_num : (0 : ℕ) < 10)]
    refine Finset.sum_congr rfl fun r _ => ?_
    rw [scaled_block V c ⟨0, h⟩ r n (by have := r.isLt; show 5000 * 0 + r.val < 50000; omega)]
  | m + 1, h => by
    have hm : m + 1 < 10 := lt_of_lt_of_eq h N_0
    have hB : ¬(⟨m + 1, h⟩ : Fin cfg0.N).val % 10 = 0 := by dsimp only; omega
    rw [outsAt0_B V c ⟨m + 1, h⟩ hB]
    dsimp only
    refine (congrFun (caseRest_5 c (grid0.coords ⟨m + 1, h⟩) (ms0_0 ⟨m + 1, h⟩) (hs0_0 ⟨m + 1, h⟩) (ms0_1 ⟨m + 1, h⟩) (hs0_1 ⟨m + 1, h⟩) (ms0_2 ⟨m + 1, h⟩) (hs0_2 ⟨m + 1, h⟩) (ms0_3 ⟨m + 1, h⟩) (hs0_3 ⟨m + 1, h⟩) (ms0_4 ⟨m + 1, h⟩) (hs0_4 ⟨m + 1, h⟩) (ms0_5 ⟨m + 1, h⟩) (hs0_5 ⟨m + 1, h⟩) (ms0_6 ⟨m + 1, h⟩) (hs0_6 ⟨m + 1, h⟩) (fun hh => hB ((hcond0_0 ⟨m + 1, h⟩).mp hh)) (iblk0 V c 0 ⟨m + 1, h⟩) (iblk0 V c 1 ⟨m + 1, h⟩) (iblk0 V c 2 ⟨m + 1, h⟩) (iblk0 V c 3 ⟨m + 1, h⟩) _ _) (ix2 (0 : Fin 1) n)).trans ?_
    rw [sumRow_apply, Finset.sum_range_succ]
    refine congrArg₂ (· + ·) (sums_after n m (Nat.lt_of_succ_lt h)) ?_
    unfold blockSum
    rw [dif_pos hm]
    refine Finset.sum_congr rfl fun r _ => ?_
    rw [scaled_block V c ⟨m + 1, h⟩ r n (by have := r.isLt; show 5000 * (m + 1) + r.val < 50000; omega)]

/-- The same for the row of sums of squares. -/
theorem squares_after (n : Fin 128) : ∀ (m : ℕ) (h : m < cfg0.N),
    ((outsAt0 V c m h).2.2 : Vec Ideal S1x128 .f32) (ix2 (0 : Fin 1) n)
      = ∑ t ∈ Finset.range (m + 1), blockSum (fun p => rowOut V c p n * rowOut V c p n) t
  | 0, h => by
    rw [outsAt0_A V c ⟨0, h⟩ rfl]
    dsimp only
    refine (congrFun (caseFirst_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩)) (ix2 (0 : Fin 1) n)).trans ?_
    rw [sqRow_apply, clearedSq_apply, zero_add, Finset.sum_range_one]
    unfold blockSum
    rw [dif_pos (by norm_num : (0 : ℕ) < 10)]
    refine Finset.sum_congr rfl fun r _ => ?_
    rw [scaled_block V c ⟨0, h⟩ r n (by have := r.isLt; show 5000 * 0 + r.val < 50000; omega)]
  | m + 1, h => by
    have hm : m + 1 < 10 := lt_of_lt_of_eq h N_0
    have hB : ¬(⟨m + 1, h⟩ : Fin cfg0.N).val % 10 = 0 := by dsimp only; omega
    rw [outsAt0_B V c ⟨m + 1, h⟩ hB]
    dsimp only
    refine (congrFun (caseRest_6 c (grid0.coords ⟨m + 1, h⟩) (ms0_0 ⟨m + 1, h⟩) (hs0_0 ⟨m + 1, h⟩) (ms0_1 ⟨m + 1, h⟩) (hs0_1 ⟨m + 1, h⟩) (ms0_2 ⟨m + 1, h⟩) (hs0_2 ⟨m + 1, h⟩) (ms0_3 ⟨m + 1, h⟩) (hs0_3 ⟨m + 1, h⟩) (ms0_4 ⟨m + 1, h⟩) (hs0_4 ⟨m + 1, h⟩) (ms0_5 ⟨m + 1, h⟩) (hs0_5 ⟨m + 1, h⟩) (ms0_6 ⟨m + 1, h⟩) (hs0_6 ⟨m + 1, h⟩) (fun hh => hB ((hcond0_0 ⟨m + 1, h⟩).mp hh)) (iblk0 V c 0 ⟨m + 1, h⟩) (iblk0 V c 1 ⟨m + 1, h⟩) (iblk0 V c 2 ⟨m + 1, h⟩) (iblk0 V c 3 ⟨m + 1, h⟩) _ _) (ix2 (0 : Fin 1) n)).trans ?_
    rw [sqRow_apply, Finset.sum_range_succ]
    refine congrArg₂ (· + ·) (squares_after n m (Nat.lt_of_succ_lt h)) ?_
    unfold blockSum
    rw [dif_pos hm]
    refine Finset.sum_congr rfl fun r _ => ?_
    rw [scaled_block V c ⟨m + 1, h⟩ r n (by have := r.isLt; show 5000 * (m + 1) + r.val < 50000; omega)]

end Cert.KernelIdeal.StatsRegion

end
-- ==== Proof.StatsFinal.lean ====
/-
  The first kernel region's three output arrays after the last grid point.

  The first output is written back at every point: point t writes rows 5000·t … 5000·t + 4999, and row p is
  written by point p / 5000, so the array ends at rowOut everywhere. The two rows of sums are written back once,
  after the last point, holding the ten block sums, that is the sum over all 50000 nodes.
-/
import proofs.«132494_j17480516894879_1_alg».proof.Proof.StatsValue

noncomputable section

open Idealize.ShloMosaic Idealize.ShloMosaic.TcCoe Idealize.SL.Sem Idealize.ShloMosaic.ValueIdx
open Idealize.ShloMosaic.Pipeline (Dat)

namespace Cert.KernelIdeal.StatsRegion

open Cert.KernelIdeal Cert.KernelIdeal.Gen

variable (V : (c : Dev nD) → (b : Ref sig .tc) → Buf (Elt Ideal) ((c : Thread nD τ).loc b)) (c : Dev nD)

/-- The three arrays as whole-array functions of what the region finds. -/
def storedAll : S50000x128.Idx → EReal := fun j => rowOut V c (j 0) (j 1)
def sumAll : S1x128.Idx → EReal := fun j => ∑ p : Fin 50000, rowOut V c p (j 1)
def squareAll : S1x128.Idx → EReal := fun j => ∑ p : Fin 50000, rowOut V c p (j 1) * rowOut V c p (j 1)

/-! ## The stored layer output -/

/-- What point t writes back is block t of the whole-array function. -/
theorem flushed_stored (t : Fin cfg0.N) :
    (dat0 (F := Ideal) V c).flushed 4 t = ((cfg0.win 4).blk t).view.read (Elt Ideal) (storedAll V c) := by
  have ht : t.val < 10 := lt_of_lt_of_eq t.isLt N_0
  obtain ⟨-, -, -, -, -, -, -, -, e0, e1, -⟩ := idx_in t
  show (cfg0.win 4).cut (grid0.coords t) ((dat0 V c).after 4 t) = _
  rw [after0_4, stored_at]
  funext j
  obtain ⟨r, n, rfl⟩ : ∃ (r : Fin 5000) (n : Fin 128), j = ix2 r n := ⟨j 0, j 1, eq_ix2 j⟩
  have hr : r.val < 5000 := r.isLt
  have hp : 5000 * t.val + r.val < 50000 := by omega
  show k0_pay3 (F := Ideal) (iblk0 V c 0 t) (iblk0 V c 2 t) (iblk0 V c 3 t) (iblk0 V c 1 t) (ix2 r n)
    = storedAll V c (((cfg0.win 4).blk t).view.emb (ix2 r n))
  rw [stored_apply, scaled_block V c t r n hp]
  have h0 : ((((cfg0.win 4).blk t).view.emb (ix2 r n)) 0) = (⟨5000 * t.val + r.val, hp⟩ : Fin 50000) := Fin.ext (by
    show win0_4.index t (0 : Fin 2) * 5000 + 1 * r.val = 5000 * t.val + r.val; omega)
  have h1 : ((((cfg0.win 4).blk t).view.emb (ix2 r n)) 1) = n := Fin.ext (by
    show win0_4.index t (1 : Fin 2) * 128 + 1 * n.val = n.val; omega)
  unfold storedAll
  rw [h0, h1]

theorem mem_block_stored (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v25_0).slice (win0_4.rect t)).set ↔ _
  rw [View.set_slice_whole, Rect.mem_set_unit]
  exact Iff.rfl

/-- Row p is written back by point p / 5000. -/
theorem covered_stored (i : S50000x128.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, e0, e1, -⟩ := idx_in t
  refine ⟨t, flush0_4 t, ?_⟩
  rw [mem_block_stored]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the last point the first output array holds rowOut at every node and channel. -/
theorem final_stored : (dat0 (F := Ideal) V c).arrAt 4 cfg0.N = storedAll V c :=
  (dat0 V c).arrAt_eq_of_cover 4 _ (fun t _ => flushed_stored V c t) (covered_stored)

/-! ## The two rows of sums -/

/-- After the last point the resident row is the whole-array function. -/
theorem row_sum (t : Fin cfg0.N) (h9 : t.val = 9) :
    ((outsAt0 V c t.val t.isLt).2.1 : Vec Ideal S1x128 .f32) = sumAll V c := by
  funext j
  obtain ⟨u, n, rfl⟩ : ∃ (u : Fin 1) (n : Fin 128), j = ix2 u n := ⟨j 0, j 1, eq_ix2 j⟩
  obtain rfl : u = 0 := Subsingleton.elim _ _
  refine (sums_after V c n t.val t.isLt).trans ?_
  rw [show t.val + 1 = 10 from by omega, range_blocks]
  rfl

/-- The one write-back of the row (after the last point) writes the sum over all nodes: the row's one block is the
    whole array. -/
theorem flushed_sum (t : Fin cfg0.N) (hf : (cfg0.win 5).flush t = true) :
    (dat0 (F := Ideal) V c).flushed 5 t = ((cfg0.win 5).blk t).view.read (Elt Ideal) (sumAll V c) := by
  have ht : t.val < 10 := lt_of_lt_of_eq t.isLt N_0
  have h9 : t.val = 9 := by have := (flush0_5 t).mp hf; omega
  obtain rfl : t = t0_9 := Fin.ext h9
  show (cfg0.win 5).cut (grid0.coords t0_9) ((dat0 V c).after 5 t0_9) = _
  rw [after0_5, row_sum V c t0_9 rfl]
  have hz' : (fun a => win0_5.index t0_9 a * main_v25_1.ty.shape.size a) = fun _ => 0 :=
    funext fun a => by fin_cases a <;> decide +kernel
  exact (Memref.read_access_unit_zero (Elt Ideal) main_v25_1 hz' (fun a => by rw [congrFun hz' a]; simp) (sumAll V c)).symm

theorem mem_block_sum (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v25_1).slice (win0_5.rect t)).set ↔ _
  rw [View.set_slice_whole, Rect.mem_set_unit]
  exact Iff.rfl

theorem covered_sum (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  obtain ⟨-, -, -, -, -, -, -, -, -, -, e50, e51, e60, e61⟩ := idx_in t0_9
  refine ⟨t0_9, (flush0_5 t0_9).mpr rfl, ?_⟩
  rw [mem_block_sum]
  intro a
  match a with
  | ⟨0, _⟩ => show win0_5.index t0_9 (0 : Fin 2) * 1 ≤ (i 0).val ∧ (i 0).val < win0_5.index t0_9 (0 : Fin 2) * 1 + 1; omega
  | ⟨1, _⟩ => show win0_5.index t0_9 (1 : Fin 2) * 128 ≤ (i 1).val ∧ (i 1).val < win0_5.index t0_9 (1 : Fin 2) * 128 + 128; omega

/-- After the last point the row of sums holds, at channel n, the sum of rowOut over all nodes. -/
theorem final_sum : (dat0 (F := Ideal) V c).arrAt 5 cfg0.N = sumAll V c :=
  (dat0 V c).arrAt_eq_of_cover 5 _ (fun t hf => flushed_sum V c t hf) (covered_sum)

/-- After the last point the resident row is the whole-array function. -/
theorem row_square (t : Fin cfg0.N) (h9 : t.val = 9) :
    ((outsAt0 V c t.val t.isLt).2.2 : Vec Ideal S1x128 .f32) = squareAll V c := by
  funext j
  obtain ⟨u, n, rfl⟩ : ∃ (u : Fin 1) (n : Fin 128), j = ix2 u n := ⟨j 0, j 1, eq_ix2 j⟩
  obtain rfl : u = 0 := Subsingleton.elim _ _
  refine (squares_after V c n t.val t.isLt).trans ?_
  rw [show t.val + 1 = 10 from by omega, range_blocks]
  rfl

/-- The one write-back of the row (after the last point) writes the sum over all nodes: the row's one block is the
    whole array. -/
theorem flushed_square (t : Fin cfg0.N) (hf : (cfg0.win 6).flush t = true) :
    (dat0 (F := Ideal) V c).flushed 6 t = ((cfg0.win 6).blk t).view.read (Elt Ideal) (squareAll V c) := by
  have ht : t.val < 10 := lt_of_lt_of_eq t.isLt N_0
  have h9 : t.val = 9 := by have := (flush0_6 t).mp hf; omega
  obtain rfl : t = t0_9 := Fin.ext h9
  show (cfg0.win 6).cut (grid0.coords t0_9) ((dat0 V c).after 6 t0_9) = _
  rw [after0_6, row_square V c t0_9 rfl]
  have hz' : (fun a => win0_6.index t0_9 a * main_v25_2.ty.shape.size a) = fun _ => 0 :=
    funext fun a => by fin_cases a <;> decide +kernel
  exact (Memref.read_access_unit_zero (Elt Ideal) main_v25_2 hz' (fun a => by rw [congrFun hz' a]; simp) (squareAll V c)).symm

theorem mem_block_square (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v25_2).slice (win0_6.rect t)).set ↔ _
  rw [View.set_slice_whole, Rect.mem_set_unit]
  exact Iff.rfl

theorem covered_square (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  obtain ⟨-, -, -, -, -, -, -, -, -, -, e50, e51, e60, e61⟩ := idx_in t0_9
  refine ⟨t0_9, (flush0_6 t0_9).mpr rfl, ?_⟩
  rw [mem_block_square]
  intro a
  match a with
  | ⟨0, _⟩ => show win0_6.index t0_9 (0 : Fin 2) * 1 ≤ (i 0).val ∧ (i 0).val < win0_6.index t0_9 (0 : Fin 2) * 1 + 1; omega
  | ⟨1, _⟩ => show win0_6.index t0_9 (1 : Fin 2) * 128 ≤ (i 1).val ∧ (i 1).val < win0_6.index t0_9 (1 : Fin 2) * 128 + 128; omega

/-- After the last point the row of sums of squares holds, at channel n, the sum of rowOut² over all nodes. -/
theorem final_square : (dat0 (F := Ideal) V c).arrAt 6 cfg0.N = squareAll V c :=
  (dat0 V c).arrAt_eq_of_cover 6 _ (fun t hf => flushed_square V c t hf) (covered_square)

end Cert.KernelIdeal.StatsRegion

end
-- ==== Proof.NormalizeRegion.lean ====
/-
  The second region of the kernel program: normalise, scale, shift, clamp below at zero, add the residual.

  The region walks the 50000 rows in ten blocks of 5000. At block t it holds rows 5000·t … 5000·t + 4999 of the
  layer's output h1 and of the residual input x, and the four rows of 128 entries μ, s, g, β whole (the same at every
  block). What it leaves in rows 5000·t … 5000·t + 4999 of its result is, entry by entry,

      x(p, n) + max(((h1(p, n) − μ(n)) · s(n)) · g(n) + β(n), 0).

  A block's entry (r, n) sits at row 5000·t + r of the arrays, the ten blocks are disjoint and cover every row (row p
  lies in block p / 5000), so after the last block the result array holds that expression at every (p, n). This file
  proves exactly that, over the extended reals, for any contents of the arrays at the region's entry.
-/
import proofs.«132494_j17480516894879_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.NormalizeRegion

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the body's arithmetic at an entry -/

/-- The body reads and writes each staged block from its corner (0, 0). -/
theorem offsets_zero : (![0, 0] : Fin 2 → Nat) = fun _ => 0 := funext fun a => by fin_cases a <;> rfl

/-- One row of 128 entries repeated down 5000 rows has, at (r, n), the row's entry n. -/
theorem row_repeated (v : Vec Ideal S1x128 .f32) (r : Fin 5000) (n : Fin 128) :
    broadcastTo S5000x128 v broadcasts_S1x128_S5000x128 (ix2 r n) = v (ix2 (0 : Fin 1) n) :=
  broadcastTo_1b_ab_apply v broadcasts_S1x128_S5000x128 r n

/-- What the body leaves in the result's block, at entry (r, n), from the blocks it holds: x0 the layer's output,
    x1 the residual, x2 … x5 the rows μ, s, g, β. Every operation acts entry by entry; the rows are repeated down
    the block before they are used. -/
theorem body_at (x0 x1 : Vec Ideal S5000x128 .f32) (x2 x3 x4 x5 : Vec Ideal S1x128 .f32) (r : Fin 5000) (n : Fin 128) :
    out1_6 (F := Ideal) x0 x1 x2 x3 x4 x5 (ix2 r n)
      = x1 (ix2 r n) + max (((x0 (ix2 r n) - x2 (ix2 (0 : Fin 1) n)) * x3 (ix2 (0 : Fin 1) n)) * x4 (ix2 (0 : Fin 1) n)
          + x5 (ix2 (0 : Fin 1) n)) (Ideal.ofBits .f32 0x00000000#32) := by
  unfold out1_6
  rw [View.canon_unit_zero offsets_zero]
  simp only [View.ld_unit_zero (S := S5000x128) offsets_zero, View.ld_unit_zero (S := S1x128) offsets_zero]
  unfold k1_pay1
  simp only [shapeCast_self]
  show x1 (ix2 r n) + max (((x0 (ix2 r n) - broadcastTo S5000x128 x2 broadcasts_S1x128_S5000x128 (ix2 r n))
        * broadcastTo S5000x128 x3 broadcasts_S1x128_S5000x128 (ix2 r n))
        * broadcastTo S5000x128 x4 broadcasts_S1x128_S5000x128 (ix2 r n)
      + broadcastTo S5000x128 x5 broadcasts_S1x128_S5000x128 (ix2 r n)) (Ideal.ofBits .f32 0x00000000#32) = _
  rw [row_repeated, row_repeated, row_repeated, row_repeated]

/-! ## The whole array as one function of the arrays the region reads -/

/-- The region's result, entry by entry: from the layer's output `h1` and the residual `x` (50000 × 128) and the
    rows `mu`, `s`, `g`, `be` (1 × 128), at j = (p, n):
    x(p, n) + max(((h1(p, n) − mu(n)) · s(n)) · g(n) + be(n), 0). -/
def normalized (h1 x : S50000x128.Idx → EReal) (mu s g be : S1x128.Idx → EReal) : S50000x128.Idx → EReal :=
  fun j => x j + max (((h1 j - mu (ix2 (0 : Fin 1) (j 1))) * s (ix2 (0 : Fin 1) (j 1))) * g (ix2 (0 : Fin 1) (j 1))
    + be (ix2 (0 : Fin 1) (j 1))) (Ideal.ofBits .f32 0x00000000#32)

/-- The same with the coordinates written out. -/
theorem normalized_apply (h1 x : S50000x128.Idx → EReal) (mu s g be : S1x128.Idx → EReal) (p : Fin 50000) (n : Fin 128) :
    normalized h1 x mu s g be (ix2 p n)
      = x (ix2 p n) + max (((h1 (ix2 p n) - mu (ix2 (0 : Fin 1) n)) * s (ix2 (0 : Fin 1) n)) * g (ix2 (0 : Fin 1) n)
          + be (ix2 (0 : Fin 1) n)) (Ideal.ofBits .f32 0x00000000#32) := rfl

/-- One entry of one block. If the block's entry y of the two tall operands is the arrays' entry i, the row
    operands are the row arrays, and i and y are in the same column, then what the body leaves at y is the whole-array
    expression at i. -/
theorem point_value (x0 x1 : Vec Ideal S5000x128 .f32) (x2 x3 x4 x5 : Vec Ideal S1x128 .f32)
    (A0 A1 : S50000x128.Idx → EReal) (R2 R3 R4 R5 : S1x128.Idx → EReal) (y : S5000x128.Idx) (i : S50000x128.Idx)
    (e0 : x0 y = A0 i) (e1 : x1 y = A1 i) (e2 : x2 = R2) (e3 : x3 = R3) (e4 : x4 = R4) (e5 : x5 = R5)
    (hc : (i 1).val = (y 1).val) :
    out1_6 (F := Ideal) x0 x1 x2 x3 x4 x5 y = normalized A0 A1 R2 R3 R4 R5 i := by
  subst e2 e3 e4 e5
  obtain ⟨r, n, rfl⟩ : ∃ (r : Fin 5000) (n : Fin 128), y = ix2 r n := ⟨y 0, y 1, eq_ix2 y⟩
  have hn : (ix2 (0 : Fin 1) (i 1) : S1x128.Idx) = ix2 (0 : Fin 1) n := by
    funext a; apply Fin.ext
    match a with
    | ⟨0, _⟩ => rfl
    | ⟨1, _⟩ => exact hc
  rw [body_at, e0, e1]
  unfold normalized
  rw [hn]

/-! ## Where each block sits in its array -/

variable (V : (c : Dev nD) → (b : Ref sig .tc) → Buf (Elt Ideal) ((c : Thread nD τ).loc b))

/-- The block indices at each of the ten points: the three tall operands (the layer's output, the residual, the
    result) are at block row t, block column 0; the four rows are always at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Block t of the layer's output: its entry (y₀, y₁) is the array's entry (5000·t + y₀, y₁). -/
theorem tall_block0 (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v25_0 : S50000x128.Idx → EReal) i := by
  obtain ⟨e0, e1, -⟩ := index_facts t
  show V c main_v25_0 (((cfg1.win 0).blk t).view.emb y) = V c main_v25_0 i
  refine congrArg (V c main_v25_0) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Block t of the residual input, likewise. -/
theorem tall_block1 (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_arg0 : S50000x128.Idx → EReal) i := by
  obtain ⟨-, -, e0, e1, -⟩ := index_facts t
  show V c main_arg0 (((cfg1.win 1).blk t).view.emb y) = V c main_arg0 i
  refine congrArg (V c main_arg0) ?_
  funext a; apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The row μ is held whole at every point: its one block is the array. -/
theorem row_block2 (c : Dev nD) (t : Fin cfg1.N) :
    (iblk1 V c 2 t : Vec Ideal S1x128 .f32) = (V c main_v27 : S1x128.Idx → EReal) := by
  obtain ⟨-, -, -, -, -, -, e0, e1, -⟩ := index_facts t
  funext z
  show V c main_v27 (((cfg1.win 2).blk t).view.emb z) = V c main_v27 z
  refine congrArg (V c main_v27) ?_
  funext a; apply Fin.ext
  match a with
  | ⟨0, _⟩ => show win1_2.index t (0 : Fin 2) * 1 + 1 * (z 0).val = (z 0).val; omega
  | ⟨1, _⟩ => show win1_2.index t (1 : Fin 2) * 128 + 1 * (z 1).val = (z 1).val; omega

/-- The row s (the reciprocal standard deviation), likewise. -/
theorem row_block3 (c : Dev nD) (t : Fin cfg1.N) :
    (iblk1 V c 3 t : Vec Ideal S1x128 .f32) = (V c main_v34 : S1x128.Idx → EReal) := by
  obtain ⟨-, -, -, -, -, -, -, -, e0, e1, -⟩ := index_facts t
  funext z
  show V c main_v34 (((cfg1.win 3).blk t).view.emb z) = V c main_v34 z
  refine congrArg (V c main_v34) ?_
  funext a; apply Fin.ext
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- The scale row g, likewise. -/
theorem row_block4 (c : Dev nD) (t : Fin cfg1.N) :
    (iblk1 V c 4 t : Vec Ideal S1x128 .f32) = (V c main_v35 : S1x128.Idx → EReal) := by
  obtain ⟨-, -, -, -, -, -, -, -, -, -, e0, e1, -⟩ := index_facts t
  funext z
  show V c main_v35 (((cfg1.win 4).blk t).view.emb z) = V c main_v35 z
  refine congrArg (V c main_v35) ?_
  funext a; apply Fin.ext
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- The shift row β, likewise. -/
theorem row_block5 (c : Dev nD) (t : Fin cfg1.N) :
    (iblk1 V c 5 t : Vec Ideal S1x128 .f32) = (V c main_v36 : S1x128.Idx → EReal) := by
  obtain ⟨-, -, -, -, -, -, -, -, -, -, -, -, e0, e1⟩ := index_facts t
  funext z
  show V c main_v36 (((cfg1.win 5).blk t).view.emb z) = V c main_v36 z
  refine congrArg (V c main_v36) ?_
  funext a; apply Fin.ext
  match a with
  | ⟨0, _⟩ => show win1_5.index t (0 : Fin 2) * 1 + 1 * (z 0).val = (z 0).val; omega
  | ⟨1, _⟩ => show win1_5.index t (1 : Fin 2) * 128 + 1 * (z 1).val = (z 1).val; omega

/-! ## From the blocks to the array -/

/-- What point t writes back is block t of the whole-array expression: the result's block sits at rows
    5000·t …, exactly where the two tall operands' blocks were read, and the rows are the same at every point. -/
theorem flushed_eq (c : Dev nD) (t : Fin cfg1.N) :
    (dat1 (F := Ideal) V c).flushed 6 t = ((cfg1.win 6).blk t).view.read (Elt Ideal)
      (normalized (V c main_v25_0) (V c main_arg0) (V c main_v27) (V c main_v34) (V c main_v35) (V c main_v36)) := by
  show (cfg1.win 6).cut (grid1.coords t) ((dat1 V c).after 6 t) = _
  rw [after1_6]
  obtain ⟨-, -, -, -, e0, e1, -⟩ := index_facts t
  funext j
  show out1_6 (iblk1 V c 0 t) (iblk1 V c 1 t) (iblk1 V c 2 t) (iblk1 V c 3 t) (iblk1 V c 4 t) (iblk1 V c 5 t) j
    = normalized (V c main_v25_0) (V c main_arg0) (V c main_v27) (V c main_v34) (V c main_v35) (V c main_v36)
        (((cfg1.win 6).blk t).view.emb j)
  have h0 : ((((cfg1.win 6).blk t).view.emb j) 0).val = t.val * 5000 + (j 0).val := by
    show win1_6.index t (0 : Fin 2) * 5000 + 1 * (j 0).val = _; omega
  have h1 : ((((cfg1.win 6).blk t).view.emb j) 1).val = (j 1).val := by
    show win1_6.index t (1 : Fin 2) * 128 + 1 * (j 1).val = _; omega
  exact point_value (iblk1 V c 0 t) (iblk1 V c 1 t) (iblk1 V c 2 t) (iblk1 V c 3 t) (iblk1 V c 4 t) (iblk1 V c 5 t)
    (V c main_v25_0) (V c main_arg0) (V c main_v27) (V c main_v34) (V c main_v35) (V c main_v36) j (((cfg1.win 6).blk t).view.emb j)
    (tall_block0 V c t j (((cfg1.win 6).blk t).view.emb j) h0 h1) (tall_block1 V c t j (((cfg1.win 6).blk t).view.emb j) h0 h1)
    (row_block2 V c t) (row_block3 V c t) (row_block4 V c t) (row_block5 V c t) h1

/-- An entry of the result array is in point t's block iff each coordinate is in the block's range on its axis. -/
theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v37).slice (win1_6.rect t)).set ↔ _
  rw [View.set_slice_whole, Rect.mem_set_unit]
  exact Iff.rfl

/-- Every entry of the result array is written back by some point: row p by point p / 5000. -/
theorem covered (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, e0, e1, -⟩ := index_facts t
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the last point the result array holds, at every (p, n),
    x(p, n) + max(((h1(p, n) − μ(n)) · s(n)) · g(n) + β(n), 0) of the arrays as the region found them. -/
theorem final_out (c : Dev nD) : (dat1 (F := Ideal) V c).arrAt 6 cfg1.N
    = normalized (V c main_v25_0) (V c main_arg0) (V c main_v27) (V c main_v34) (V c main_v35) (V c main_v36) :=
  (dat1 V c).arrAt_eq_of_cover 6 _ (fun t _ => flushed_eq V c t) covered

end Cert.KernelIdeal.NormalizeRegion

end
-- ==== Proof.HostGlue.lean ====
/-
  The kernel program's host operations around its two regions, read at an index.

  Before the first region the program aggregates the features exactly as the reference does -- the same gather of
  source rows, the same scatter-add onto zeros, the same division by max(in-degree, 1) and the same choice by the sign
  of the in-degree -- so the table the first region enters with IS the reference's aggregated table of the same three
  arrays: the two programs spell the same operations over dimension records with the same fields, and nothing of a
  gather or a scatter has to be computed to see it. The weight matrix enters transposed, the bias with a leading unit
  axis, the per-node scale as launched.

  Between the regions the program turns the first region's column sums S and sums of squares Q into the column mean
  S / N and the reciprocal standard deviation 1 / sqrt(Q / N - (S / N)(S / N) + offset), entry by entry over a row of
  128, gives the batch-norm scale and shift a leading unit axis, and writes nothing else: the residual input is the
  launched features, and the first region's first output is what that region left.
-/
import proofs.«132494_j17480516894879_1_alg».proof.Proof.Gen.KernelIdeal.Frame
import proofs.«132494_j17480516894879_1_alg».proof.Proof.RefRead
import Idealize.ShloMosaic.Lib.StableHlo.Run
import Idealize.ShloMosaic.Lib.ValueLayout
import Idealize.ShloMosaic.Lib.ValueIdx
import Idealize.ShloMosaic.Lib.Pipeline.Value

noncomputable section

namespace Cert.KernelIdeal.HostGlue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The aggregated features at the first region's entry -/

/-- The in-degree mask column as the first stretch of host operations leaves it: the reference's stage of the same
    array of destinations. -/
theorem w1_v21 : W1 (F := Ideal) m ρ c (Proc.devRef .tc main_v21)
    = Cert.ReferenceIdeal.ReadP.val_main_v21 (F := Ideal) (m ((c : Thread nD τ).loc main_arg3)) := by
  dsimp only [W1, hostOps0]
  after_results
  rfl

set_option maxHeartbeats 2000000 in
/-- The neighbour sums divided by max(in-degree, 1) as the first stretch leaves them: the reference's stage of the
    same three arrays. The two programs spell the same operations, over records with the same fields. -/
theorem w1_v20 : W1 (F := Ideal) m ρ c (Proc.devRef .tc main_v20)
    = Cert.ReferenceIdeal.ReadP.val_main_v20 (F := Ideal) (m ((c : Thread nD τ).loc main_arg0))
        (m ((c : Thread nD τ).loc main_arg2)) (m ((c : Thread nD τ).loc main_arg3)) := by
  dsimp only [W1, hostOps0]
  after_results_simp
  rfl

/-- The first stretch writes no argument: the features are as launched. -/
theorem w1_arg0 : W1 (F := Ideal) m ρ c (Proc.devRef .tc main_arg0) = m ((c : Thread nD τ).loc main_arg0) := by
  dsimp only [W1, hostOps0]
  after_results

/-- The select's two operations, over any contents before them: the mask column broadcast along the rows chooses,
    entry by entry, between the two tables. -/
theorem where_apply (F1 : Valuation τ sig (Elt Ideal)) :
    (StableHlo.after hostOps0_1 F1 (Proc.devRef .tc main_v22) : S50000x128.Idx → EReal)
      = select (broadcastInDim S50000x128 ![0, 1] bcast_S50000x1_S50000x128_0_1
            (F1 (Proc.devRef .tc main_v21) : S50000x1.Idx → BitVec 1))
          (F1 (Proc.devRef .tc main_v20) : S50000x128.Idx → EReal)
          (F1 (Proc.devRef .tc main_arg0) : S50000x128.Idx → EReal) := by
  dsimp only [hostOps0_1]
  after_results
  rfl

/-- The transpose and the reshape that follow do not write the aggregated features. -/
theorem w3_v22 : W3 (F := Ideal) m ρ c (Proc.devRef .tc main_v22) = W2 (F := Ideal) m ρ c (Proc.devRef .tc main_v22) :=
  StableHlo.after_of_forall_not_mem _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- THE AGGREGATED FEATURES the first region enters with are the reference's aggregated features of the same three
    arrays. -/
theorem entry_feats : (V3 (F := Ideal) m ρ c main_v22 : S50000x128.Idx → EReal)
    = Cert.ReferenceIdeal.ReadP.val_main_v22 (F := Ideal) (m ((c : Thread nD τ).loc main_arg0))
        (m ((c : Thread nD τ).loc main_arg2)) (m ((c : Thread nD τ).loc main_arg3)) := by
  refine (w3_v22 m ρ c).trans ?_
  show StableHlo.after hostOps0_1 (W1 (F := Ideal) m ρ c) (Proc.devRef .tc main_v22) = _
  rw [where_apply, w1_v21 m ρ c, w1_v20 m ρ c, w1_arg0 m ρ c]
  rfl

/-! ## The arguments, as launched -/

/-- None of the three stretches before the first region writes an argument. -/
theorem w3_arg0 : W3 (F := Ideal) m ρ c (Proc.devRef .tc main_arg0) = m ((c : Thread nD τ).loc main_arg0) := by
  dsimp only [W3, W2, W1, hostOps0, hostOps0_1, hostOps0_2]
  after_results_simp <;> rfl
theorem w3_arg6 : W3 (F := Ideal) m ρ c (Proc.devRef .tc main_arg6) = m ((c : Thread nD τ).loc main_arg6) := by
  dsimp only [W3, W2, W1, hostOps0, hostOps0_1, hostOps0_2]
  after_results_simp <;> rfl
theorem w3_arg7 : W3 (F := Ideal) m ρ c (Proc.devRef .tc main_arg7) = m ((c : Thread nD τ).loc main_arg7) := by
  dsimp only [W3, W2, W1, hostOps0, hostOps0_1, hostOps0_2]
  after_results_simp <;> rfl

/-- The per-node scale the first region enters with is the launched one. -/
theorem entry_scale : V3 (F := Ideal) m ρ c main_arg1 = m ((c : Thread nD τ).loc main_arg1) := by
  dsimp only [V3, W3, W2, W1, hostOps0, hostOps0_1, hostOps0_2]
  after_results_simp <;> rfl

/-- The weight matrix the first region enters with is the launched one transposed: entry (k, n) is the launched
    entry (n, k). -/
theorem entry_weights (k n : Fin 128) :
    (V3 (F := Ideal) m ρ c main_v23 : S128x128.Idx → EReal) (ix2 k n)
      = (m ((c : Thread nD τ).loc main_arg4) : S128x128.Idx → EReal) (ix2 n k) := by
  have h : (V3 (F := Ideal) m ρ c main_v23 : S128x128.Idx → EReal)
      = transpose S128x128 [1, 0] (m ((c : Thread nD τ).loc main_arg4) : S128x128.Idx → EReal)
          transposes_S128x128_S128x128_1_0 := by
    dsimp only [V3, W3, W2, W1, hostOps0, hostOps0_1, hostOps0_2]
    after_results_simp <;> rfl
  rw [h]
  exact transpose_ix2_apply _ _ k n

/-- The bias row the first region enters with is the launched bias given a leading unit axis. -/
theorem entry_bias (n : Fin 128) :
    (V3 (F := Ideal) m ρ c main_v24 : S1x128.Idx → EReal) (ix2 (0 : Fin 1) n)
      = (m ((c : Thread nD τ).loc main_arg5) : S128.Idx → EReal) (ix1 n) := by
  have h : (V3 (F := Ideal) m ρ c main_v24 : S1x128.Idx → EReal)
      = shapeCast S1x128 (m ((c : Thread nD τ).loc main_arg5) : S128.Idx → EReal) shapeCasts_S128_S1x128 := by
    dsimp only [V3, W3, W2, W1, hostOps0, hostOps0_1, hostOps0_2]
    after_results_simp <;> rfl
  rw [h]
  exact shapeCast_a_1a_apply _ _ (0 : Fin 1) n

/-! ## Between the two regions -/

/-- A scalar constant broadcast to a row of 128. -/
theorem row_apply (w : BitVec 32) (i : S1x128.Idx) :
    broadcastInDim S1x128 ![] bcast_S_S1x128 (constant (F := Ideal) S_ .f32 w) i = Ideal.ofBits .f32 w :=
  broadcastInDim_apply _ bcast_S_S1x128 _ i (fun a => a.elim0) (fun a => a.elim0)

/-- The stretch between the regions writes no argument and the first region has the features among none of its
    arrays: the residual input the second region enters with is the launched features. -/
theorem mid_residual : V5 (F := Ideal) m ρ c main_arg0 = m ((c : Thread nD τ).loc main_arg0) := by
  have h5 : W5 (F := Ideal) m ρ c (Proc.devRef .tc main_arg0) = W4 (F := Ideal) m ρ c (Proc.devRef .tc main_arg0) :=
    StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
  exact h5.trans ((W4_of_ne m ρ c main_arg0 (by decide)).trans (w3_arg0 m ρ c))

/-- The first region's first output is not written between the regions. -/
theorem mid_stats0 : V5 (F := Ideal) m ρ c main_v25_0 = W4 (F := Ideal) m ρ c (Proc.devRef .tc main_v25_0) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The column mean the second region enters with: the first region's column sums divided by the node count. -/
theorem mid_mean (n : Fin 128) :
    (V5 (F := Ideal) m ρ c main_v27 : S1x128.Idx → EReal) (ix2 (0 : Fin 1) n)
      = Ideal.div ((W4 (F := Ideal) m ρ c (Proc.devRef .tc main_v25_1) : S1x128.Idx → EReal) (ix2 (0 : Fin 1) n))
          (Ideal.ofBits .f32 0x47435000#32) := by
  have h : (V5 (F := Ideal) m ρ c main_v27 : S1x128.Idx → EReal)
      = Host.divf (F := Ideal) (W4 (F := Ideal) m ρ c (Proc.devRef .tc main_v25_1) : FVec Ideal S1x128 .f32)
          (broadcastInDim S1x128 ![] bcast_S_S1x128 (constant (F := Ideal) S_ .f32 0x47435000#32)) := by
    dsimp only [V5, W5, hostOps1]
    after_results_simp <;> rfl
  rw [h]
  show Ideal.div _ (broadcastInDim S1x128 ![] bcast_S_S1x128 (constant (F := Ideal) S_ .f32 0x47435000#32) (ix2 (0 : Fin 1) n)) = _
  rw [row_apply]

/-- The reciprocal standard deviation the second region enters with: one over the square root of (mean of squares
    less square of mean, plus the offset), from the first region's column sums and sums of squares. -/
theorem mid_invstd (n : Fin 128) :
    (V5 (F := Ideal) m ρ c main_v34 : S1x128.Idx → EReal) (ix2 (0 : Fin 1) n)
      = Ideal.rsqrt
          (Ideal.div ((W4 (F := Ideal) m ρ c (Proc.devRef .tc main_v25_2) : S1x128.Idx → EReal) (ix2 (0 : Fin 1) n))
              (Ideal.ofBits .f32 0x47435000#32)
            - Ideal.div ((W4 (F := Ideal) m ρ c (Proc.devRef .tc main_v25_1) : S1x128.Idx → EReal) (ix2 (0 : Fin 1) n))
                (Ideal.ofBits .f32 0x47435000#32)
              * Ideal.div ((W4 (F := Ideal) m ρ c (Proc.devRef .tc main_v25_1) : S1x128.Idx → EReal) (ix2 (0 : Fin 1) n))
                (Ideal.ofBits .f32 0x47435000#32)
            + Ideal.ofBits .f32 0x3727C5AC#32) := by
  have h : (V5 (F := Ideal) m ρ c main_v34 : S1x128.Idx → EReal)
      = Host.rsqrt (F := Ideal)
          (addf
            (subf
              (Host.divf (F := Ideal) (W4 (F := Ideal) m ρ c (Proc.devRef .tc main_v25_2) : FVec Ideal S1x128 .f32)
                (broadcastInDim S1x128 ![] bcast_S_S1x128 (constant (F := Ideal) S_ .f32 0x47435000#32)))
              (mulf
                (Host.divf (F := Ideal) (W4 (F := Ideal) m ρ c (Proc.devRef .tc main_v25_1) : FVec Ideal S1x128 .f32)
                  (broadcastInDim S1x128 ![] bcast_S_S1x128 (constant (F := Ideal) S_ .f32 0x47435000#32)))
                (Host.divf (F := Ideal) (W4 (F := Ideal) m ρ c (Proc.devRef .tc main_v25_1) : FVec Ideal S1x128 .f32)
                  (broadcastInDim S1x128 ![] bcast_S_S1x128 (constant (F := Ideal) S_ .f32 0x47435000#32)))))
            (broadcastInDim S1x128 ![] bcast_S_S1x128 (constant (F := Ideal) S_ .f32 0x3727C5AC#32))) := by
    dsimp only [V5, W5, hostOps1]
    after_results_simp <;> rfl
  rw [h]
  show Ideal.rsqrt
      (Ideal.div _ (broadcastInDim S1x128 ![] bcast_S_S1x128 (constant (F := Ideal) S_ .f32 0x47435000#32) (ix2 (0 : Fin 1) n))
        - Ideal.div _ (broadcastInDim S1x128 ![] bcast_S_S1x128 (constant (F := Ideal) S_ .f32 0x47435000#32) (ix2 (0 : Fin 1) n))
          * Ideal.div _ (broadcastInDim S1x128 ![] bcast_S_S1x128 (constant (F := Ideal) S_ .f32 0x47435000#32) (ix2 (0 : Fin 1) n))
        + broadcastInDim S1x128 ![] bcast_S_S1x128 (constant (F := Ideal) S_ .f32 0x3727C5AC#32) (ix2 (0 : Fin 1) n)) = _
  rw [row_apply, row_apply]

/-- The batch-norm scale row the second region enters with is the launched scale given a leading unit axis. -/
theorem mid_gamma (n : Fin 128) :
    (V5 (F := Ideal) m ρ c main_v35 : S1x128.Idx → EReal) (ix2 (0 : Fin 1) n)
      = (m ((c : Thread nD τ).loc main_arg6) : S128.Idx → EReal) (ix1 n) := by
  have h : (V5 (F := Ideal) m ρ c main_v35 : S1x128.Idx → EReal)
      = shapeCast S1x128 (W4 (F := Ideal) m ρ c (Proc.devRef .tc main_arg6) : S128.Idx → EReal) shapeCasts_S128_S1x128 := by
    dsimp only [V5, W5, hostOps1]
    after_results_simp <;> rfl
  rw [h]
  refine (shapeCast_a_1a_apply _ _ (0 : Fin 1) n).trans ?_
  rw [W4_of_ne m ρ c main_arg6 (by decide), w3_arg6 m ρ c]

/-- The batch-norm shift row the second region enters with is the launched shift given a leading unit axis. -/
theorem mid_beta (n : Fin 128) :
    (V5 (F := Ideal) m ρ c main_v36 : S1x128.Idx → EReal) (ix2 (0 : Fin 1) n)
      = (m ((c : Thread nD τ).loc main_arg7) : S128.Idx → EReal) (ix1 n) := by
  have h : (V5 (F := Ideal) m ρ c main_v36 : S1x128.Idx → EReal)
      = shapeCast S1x128 (W4 (F := Ideal) m ρ c (Proc.devRef .tc main_arg7) : S128.Idx → EReal) shapeCasts_S128_S1x128 := by
    dsimp only [V5, W5, hostOps1]
    after_results_simp <;> rfl
  rw [h]
  refine (shapeCast_a_1a_apply _ _ (0 : Fin 1) n).trans ?_
  rw [W4_of_ne m ρ c main_arg7 (by decide), w3_arg7 m ρ c]

end Cert.KernelIdeal.HostGlue

end
-- ==== Proof.WholeValue.lean ====
/-
  The kernel program's result array as one function of its arguments, over the extended reals.

  The first region leaves rowOut (the layer's output before normalisation), its column sums and the column sums of
  its squares; the host operations between the regions turn the two rows into the column mean μ = S/N and the
  reciprocal standard deviation 1/√(Q/N − μ² + ε); the second region normalises, scales, shifts, clamps at zero and
  adds the residual. With the arrays the first region reads traced back to the arguments — the aggregated features
  (the shared aggregation stage of the three arrays feature, src, dst), the weight matrix transposed, the bias as a
  row, the node scales — this is the one-pass arrangement of the specification, entry by entry.
-/
import proofs.«132494_j17480516894879_1_alg».proof.Proof.Spec
import proofs.«132494_j17480516894879_1_alg».proof.Proof.StatsFinal
import proofs.«132494_j17480516894879_1_alg».proof.Proof.NormalizeRegion
import proofs.«132494_j17480516894879_1_alg».proof.Proof.KernelRun
import proofs.«132494_j17480516894879_1_alg».proof.Proof.RefRead
import proofs.«132494_j17480516894879_1_alg».proof.Proof.HostGlue

noncomputable section

open Idealize.ShloMosaic Idealize.ShloMosaic.TcCoe Idealize.SL.Sem Idealize.ShloMosaic.ValueIdx

namespace Cert.KernelIdeal.WholeValue

open Cert.KernelIdeal Cert.KernelIdeal.Gen

variable (m : (ℓ : Loc nD τ sig) → Buf (Elt Ideal) ℓ) (ρ : Dev nD → PrngReg) (c : Dev nD)

/-- The aggregated node features as a function of the arguments feature, src, dst: the aggregation stage the
    reference program shares. -/
abbrev aggregated : (⟨2, ![50000, 128]⟩ : Shape).Idx → EReal :=
  Cert.ReferenceIdeal.ReadP.val_main_v22 (F := Ideal) (m ((c : Thread nD τ).loc main_arg0)) (m ((c : Thread nD τ).loc main_arg2)) (m ((c : Thread nD τ).loc main_arg3))

/-- The kernel's result as the specification's one-pass arrangement of the arguments. -/
abbrev onePass : (⟨2, ![50000, 128]⟩ : Shape).Idx → EReal := fun j =>
  Cert.Spec.outOnePass (aggregated m c) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg0)) (j 0) (j 1)

/-- The first region's rowOut, at its entry contents, is the specification's y of the arguments. -/
theorem rowOut_eq
    (hfeats : (V3 m ρ c main_v22 : S50000x128.Idx → EReal) = aggregated m c)
    (hscale : (V3 m ρ c main_arg1 : S50000x1.Idx → EReal) = (m ((c : Thread nD τ).loc main_arg1)))
    (hweights : ∀ k n : Fin 128, (V3 m ρ c main_v23 : S128x128.Idx → EReal) (ix2 k n) = ((m ((c : Thread nD τ).loc main_arg4)) : S128x128.Idx → EReal) (ix2 n k))
    (hbias : ∀ n : Fin 128, (V3 m ρ c main_v24 : S1x128.Idx → EReal) (ix2 (0 : Fin 1) n) = ((m ((c : Thread nD τ).loc main_arg5)) : S128.Idx → EReal) (ix1 n))
    (p : Fin 50000) (n : Fin 128) :
    StatsRegion.rowOut (V3 m ρ) c p n = Cert.Spec.y (aggregated m c) (m ((c : Thread nD τ).loc main_arg1)) (m ((c : Thread nD τ).loc main_arg4)) (m ((c : Thread nD τ).loc main_arg5)) p n := by
  unfold StatsRegion.rowOut Cert.Spec.y Cert.Spec.lin
  refine congrArg₂ (· * ·) (congrArg₂ (· + ·) (Finset.sum_congr rfl fun k _ => congrArg₂ (· * ·) ?_ ?_) ?_) ?_
  · exact congrFun hfeats (ix2 p k)
  · exact hweights k n
  · exact hbias n
  · exact congrFun hscale (ix2 p (0 : Fin 1))

/-- The kernel's result array is the one-pass arrangement of the arguments, given what the host operations around
    the two regions hold at the buffers the regions read. -/
theorem result_of_glue
    (hfeats : (V3 m ρ c main_v22 : S50000x128.Idx → EReal) = aggregated m c)
    (hscale : (V3 m ρ c main_arg1 : S50000x1.Idx → EReal) = (m ((c : Thread nD τ).loc main_arg1)))
    (hweights : ∀ k n : Fin 128, (V3 m ρ c main_v23 : S128x128.Idx → EReal) (ix2 k n) = ((m ((c : Thread nD τ).loc main_arg4)) : S128x128.Idx → EReal) (ix2 n k))
    (hbias : ∀ n : Fin 128, (V3 m ρ c main_v24 : S1x128.Idx → EReal) (ix2 (0 : Fin 1) n) = ((m ((c : Thread nD τ).loc main_arg5)) : S128.Idx → EReal) (ix1 n))
    (hres : (V5 m ρ c main_arg0 : S50000x128.Idx → EReal) = (m ((c : Thread nD τ).loc main_arg0)))
    (hstat0 : (V5 m ρ c main_v25_0 : S50000x128.Idx → EReal) = (W4 m ρ c (Proc.devRef .tc main_v25_0) : S50000x128.Idx → EReal))
    (hmean : ∀ n : Fin 128, (V5 m ρ c main_v27 : S1x128.Idx → EReal) (ix2 (0 : Fin 1) n)
      = Ideal.div ((W4 m ρ c (Proc.devRef .tc main_v25_1) : S1x128.Idx → EReal) (ix2 (0 : Fin 1) n)) Cert.Spec.cN)
    (hinv : ∀ n : Fin 128, (V5 m ρ c main_v34 : S1x128.Idx → EReal) (ix2 (0 : Fin 1) n)
      = Ideal.rsqrt (Ideal.div ((W4 m ρ c (Proc.devRef .tc main_v25_2) : S1x128.Idx → EReal) (ix2 (0 : Fin 1) n)) Cert.Spec.cN
          - Ideal.div ((W4 m ρ c (Proc.devRef .tc main_v25_1) : S1x128.Idx → EReal) (ix2 (0 : Fin 1) n)) Cert.Spec.cN * Ideal.div ((W4 m ρ c (Proc.devRef .tc main_v25_1) : S1x128.Idx → EReal) (ix2 (0 : Fin 1) n)) Cert.Spec.cN + Cert.Spec.cEps))
    (hgamma : ∀ n : Fin 128, (V5 m ρ c main_v35 : S1x128.Idx → EReal) (ix2 (0 : Fin 1) n) = ((m ((c : Thread nD τ).loc main_arg6)) : S128.Idx → EReal) (ix1 n))
    (hbeta : ∀ n : Fin 128, (V5 m ρ c main_v36 : S1x128.Idx → EReal) (ix2 (0 : Fin 1) n) = ((m ((c : Thread nD τ).loc main_arg7)) : S128.Idx → EReal) (ix1 n)) :
    W6 m ρ c (Proc.devRef .tc main_v37) = onePass m c := by
  rw [NamedRun.result_is_region1_output, NormalizeRegion.final_out (V5 m ρ) c]
  funext j
  obtain ⟨p, n, rfl⟩ : ∃ (p : Fin 50000) (n : Fin 128), j = ix2 p n := ⟨j 0, j 1, eq_ix2 j⟩
  rw [NormalizeRegion.normalized_apply]
  have hy : ∀ q : Fin 50000, StatsRegion.rowOut (V3 m ρ) c q n = Cert.Spec.y (aggregated m c) (m ((c : Thread nD τ).loc main_arg1)) (m ((c : Thread nD τ).loc main_arg4)) (m ((c : Thread nD τ).loc main_arg5)) q n :=
    fun q => rowOut_eq m ρ c hfeats hscale hweights hbias q n
  have hS1 : (W4 m ρ c (Proc.devRef .tc main_v25_1) : S1x128.Idx → EReal) (ix2 (0 : Fin 1) n) = Cert.Spec.colSum (aggregated m c) (m ((c : Thread nD τ).loc main_arg1)) (m ((c : Thread nD τ).loc main_arg4)) (m ((c : Thread nD τ).loc main_arg5)) n := by
    have e : (W4 m ρ c (Proc.devRef .tc main_v25_1) : S1x128.Idx → EReal) = StatsRegion.sumAll (V3 m ρ) c :=
      (NamedRun.stats_arrays (F := Ideal) m ρ c 5).trans (StatsRegion.final_sum (V3 m ρ) c)
    rw [e]
    show (∑ q : Fin 50000, StatsRegion.rowOut (V3 m ρ) c q n) = ∑ q : Fin 50000, Cert.Spec.y (aggregated m c) (m ((c : Thread nD τ).loc main_arg1)) (m ((c : Thread nD τ).loc main_arg4)) (m ((c : Thread nD τ).loc main_arg5)) q n
    exact Finset.sum_congr rfl fun q _ => hy q
  have hS2 : (W4 m ρ c (Proc.devRef .tc main_v25_2) : S1x128.Idx → EReal) (ix2 (0 : Fin 1) n) = Cert.Spec.colSq (aggregated m c) (m ((c : Thread nD τ).loc main_arg1)) (m ((c : Thread nD τ).loc main_arg4)) (m ((c : Thread nD τ).loc main_arg5)) n := by
    have e : (W4 m ρ c (Proc.devRef .tc main_v25_2) : S1x128.Idx → EReal) = StatsRegion.squareAll (V3 m ρ) c :=
      (NamedRun.stats_arrays (F := Ideal) m ρ c 6).trans (StatsRegion.final_square (V3 m ρ) c)
    rw [e]
    show (∑ q : Fin 50000, StatsRegion.rowOut (V3 m ρ) c q n * StatsRegion.rowOut (V3 m ρ) c q n)
      = ∑ q : Fin 50000, Cert.Spec.y (aggregated m c) (m ((c : Thread nD τ).loc main_arg1)) (m ((c : Thread nD τ).loc main_arg4)) (m ((c : Thread nD τ).loc main_arg5)) q n * Cert.Spec.y (aggregated m c) (m ((c : Thread nD τ).loc main_arg1)) (m ((c : Thread nD τ).loc main_arg4)) (m ((c : Thread nD τ).loc main_arg5)) q n
    exact Finset.sum_congr rfl fun q _ => congrArg₂ (· * ·) (hy q) (hy q)
  have hh1 : (V5 m ρ c main_v25_0 : S50000x128.Idx → EReal) (ix2 p n) = Cert.Spec.y (aggregated m c) (m ((c : Thread nD τ).loc main_arg1)) (m ((c : Thread nD τ).loc main_arg4)) (m ((c : Thread nD τ).loc main_arg5)) p n := by
    have e : (W4 m ρ c (Proc.devRef .tc main_v25_0) : S50000x128.Idx → EReal) = StatsRegion.storedAll (V3 m ρ) c :=
      (NamedRun.stats_arrays (F := Ideal) m ρ c 4).trans (StatsRegion.final_stored (V3 m ρ) c)
    rw [hstat0, e]
    exact hy p
  rw [hh1, hres, hmean n, hinv n, hgamma n, hbeta n, hS1, hS2]
  rfl

/-- The kernel's result array is the one-pass arrangement of the arguments. -/
theorem result_eq : W6 m ρ c (Proc.devRef .tc main_v37) = onePass m c :=
  result_of_glue m ρ c (HostGlue.entry_feats m ρ c) (HostGlue.entry_scale m ρ c) (HostGlue.entry_weights m ρ c)
    (HostGlue.entry_bias m ρ c) (HostGlue.mid_residual m ρ c) (HostGlue.mid_stats0 m ρ c) (HostGlue.mid_mean m ρ c)
    (HostGlue.mid_invstd m ρ c) (HostGlue.mid_gamma m ρ c) (HostGlue.mid_beta m ρ c)

end Cert.KernelIdeal.WholeValue

end
-- ==== Proof.lean ====
/-
  One graph-convolution layer with batch normalisation, two arrangements of the same function of the inputs.

  Both programs first aggregate, for every node, the mean of the features of its in-neighbours (a gather of rows, a
  scatter-add by destination, a division by the in-degree clamped below at one; a node with no in-neighbour keeps its
  own features). That stage is the same operations on the same arrays in both programs and is carried as one
  function h0 of (feature, src, dst). Then, with y(p,n) = (Σ_k h0(p,k)·W(n,k) + b(n))·snorm(p) and N = 50000:

    the kernel program computes y block by block in a first pipelined region, accumulating S(n) = Σ_p y(p,n) and
    Q(n) = Σ_p y(p,n)² over the ten blocks; on the host μ = S/N and r = rsqrt(Q/N − μ² + ε); a second region
    writes feature + max((y − μ)·r·γ + β, 0);

    the reference program computes μ = (Σ_p y)/N, v = (Σ_p (y − μ)²)/N and feature + max((y − μ)/√(v + ε)·γ + β, 0).

  Over the extended reals the two agree when the inputs are finite: then h0 is finite (a finite sum of finite
  features divided by an extended real that is at least one), y is finite, Q/N − μ² = v (the two forms of a variance
  of finitely many reals), v ≥ 0 so v + ε is a positive real, and a·rsqrt(s) = a/√s at a positive real s. The scale γ,
  the shift β and the residual are never moved, so nothing is asked of them.

  The three frames: the two kernel programs' are their frame certificates, the reference's is its run with the
  result dropped. The idealization rewrote nothing.
-/
import proofs.«132494_j17480516894879_1_alg».proof.Defs
import proofs.«132494_j17480516894879_1_alg».proof.Proof.Gen.Kernel
import proofs.«132494_j17480516894879_1_alg».proof.Proof.Gen.Kernel.Skeleton
import proofs.«132494_j17480516894879_1_alg».proof.Proof.Gen.Kernel.Launch
import proofs.«132494_j17480516894879_1_alg».proof.Proof.Gen.Kernel.Points
import proofs.«132494_j17480516894879_1_alg».proof.Proof.Gen.Kernel.Frame
import proofs.«132494_j17480516894879_1_alg».proof.Proof.Gen.KernelIdeal
import proofs.«132494_j17480516894879_1_alg».proof.Proof.Gen.KernelIdeal.Skeleton
import proofs.«132494_j17480516894879_1_alg».proof.Proof.Gen.KernelIdeal.Launch
import proofs.«132494_j17480516894879_1_alg».proof.Proof.Gen.KernelIdeal.Points
import proofs.«132494_j17480516894879_1_alg».proof.Proof.Gen.KernelIdeal.Frame
import proofs.«132494_j17480516894879_1_alg».proof.Proof.Gen.ReferenceIdeal
import proofs.«132494_j17480516894879_1_alg».proof.Proof.Gen.Pre_finite_inputs
import proofs.«132494_j17480516894879_1_alg».proof.Proof.RefRun
import proofs.«132494_j17480516894879_1_alg».proof.Proof.RefRead
import proofs.«132494_j17480516894879_1_alg».proof.Proof.RefValue
import proofs.«132494_j17480516894879_1_alg».proof.Proof.AggregateFinite
import proofs.«132494_j17480516894879_1_alg».proof.Proof.FiniteInputs
import proofs.«132494_j17480516894879_1_alg».proof.Proof.BatchNormLaw
import proofs.«132494_j17480516894879_1_alg».proof.Proof.KernelRun
import proofs.«132494_j17480516894879_1_alg».proof.Proof.WholeValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the one-pass arrangement of the kernel program's arguments: the kernel program by its run
    read region by region, the reference by its run read operation by operation (the centred arrangement) and the
    law that joins the two arrangements at finite inputs. -/
theorem algebraic : Cert.algebraic_KernelIdeal_ReferenceIdeal := by
  intro m ρ m' ρ' hpre hagree
  refine ⟨fun c => Cert.KernelIdeal.WholeValue.onePass m c, ?_, ?_⟩
  · exact (θ_run Cert.KernelIdeal.defs _ _).mono
      (fun _ h c => ⟨(h c).1.trans (Cert.KernelIdeal.WholeValue.result_eq m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hx0, hx1, hx4, hx5, -, -⟩ := Cert.FiniteInputs.reals_of_pre _ _ _ _ _ _ _ _ (hpre c)
    rw [Cert.ReferenceIdeal.ReadP.val_main_v56_eq, Cert.RefValue.ref_result, (hagree c).1, (hagree c).2.1, (hagree c).2.2.1,
      (hagree c).2.2.2.1, (hagree c).2.2.2.2.1, (hagree c).2.2.2.2.2.1, (hagree c).2.2.2.2.2.2.1, (hagree c).2.2.2.2.2.2.2]
    funext j
    exact (Cert.BatchNormLaw.outOnePass_eq_outCentred _ _ _ _ _ _ _
      (Cert.AggregateFinite.aggregated_real _ _ _ hx0) hx1 hx4 hx5 (j 0) (j 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
